-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S_ : Shape := ⟨0, ![]⟩

class Facts : Prop where
  bcast_S_S524288x94 : S_.BroadcastsInDim S524288x94 (![] : Fin 0 → Fin S524288x94.rank)
  reducesTo_S524288x94_S_d0_1 : S524288x94.ReducesTo [0, 1] S_
  h_S_ : 0 < S_.numel
  bcast_S_S12x32 : S_.BroadcastsInDim S12x32 (![] : Fin 0 → Fin S12x32.rank)
  reducesTo_S12x32_S_d0_1 : S12x32.ReducesTo [0, 1] S_
  bcast_S_S32 : S_.BroadcastsInDim S32 (![] : Fin 0 → Fin S32.rank)
  reducesTo_S32_S_d0 : S32.ReducesTo [0] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S36x32 : S_.BroadcastsInDim S36x32 (![] : Fin 0 → Fin S36x32.rank)
  reducesTo_S36x32_S_d0_1 : S36x32.ReducesTo [0, 1] S_
  bcast_S_S12x16 : S_.BroadcastsInDim S12x16 (![] : Fin 0 → Fin S12x16.rank)
  reducesTo_S12x16_S_d0_1 : S12x16.ReducesTo [0, 1] S_
  bcast_S_S20x32 : S_.BroadcastsInDim S20x32 (![] : Fin 0 → Fin S20x32.rank)
  reducesTo_S20x32_S_d0_1 : S20x32.ReducesTo [0, 1] S_
  bcast_S_S160 : S_.BroadcastsInDim S160 (![] : Fin 0 → Fin S160.rank)
  reducesTo_S160_S_d0 : S160.ReducesTo [0] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128 .f32) (main_arg20 : FVec F S128 .f32) (main_v83 : IVec S_ 1) (main_v84 : FVec F S160x128 .f32) (main_cst_32 : FVec F S_ .f32) : IVec S_ 1 :=
  let main_v85 : FVec F S160x128 .f32 := broadcastInDim S160x128 ![] bcast_S_S160x128 main_cst_32
  let main_v86 : IVec S160x128 1 := cmpf .olt main_v84 main_v85
  let main_c_33 : IVec S_ 1 := constantI S_ 1 1#1
  let main_v87 : IVec S_ 1 := (fun x v => Host.reduce IntOp.andi x v reducesTo_S160x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S160 .f32 := Host.absf main_arg15
  let main_cst_28 : FVec F S_ .f32 := constant S_ .f32 0x7F800000#32
  let main_v75 : FVec F S160 .f32 := broadcastInDim S160 ![] bcast_S_S160 main_cst_28
  let main_v76 : IVec S160 1 := cmpf .olt main_v74 main_v75
  let main_c_29 : IVec S_ 1 := constantI S_ 1 1#1
  let main_v77 : IVec S_ 1 := (fun x v => Host.reduce IntOp.andi x v reducesTo_S160_S_d0 h_S_) main_v76 main_c_29
  let main_v78 : IVec S_ 1 := andi main_v73 main_v77
  let main_v79 : FVec F S160 .f32 := Host.absf main_arg16
  let main_cst_30 : FVec F S_ .f32 := constant S_ .f32 0x7F800000#32
  let main_v80 : FVec F S160 .f32 := broadcastInDim S160 ![] bcast_S_S160 main_cst_30
  let main_v81 : IVec S160 1 := cmpf .olt main_v79 main_v80
  let main_c_31 : IVec S_ 1 := constantI S_ 1 1#1
  let main_v82 : IVec S_ 1 := (fun x v => Host.reduce IntOp.andi x v reducesTo_S160_S_d0 h_S_) main_v81 main_c_31
  let main_v83 : IVec S_ 1 := andi main_v78 main_v82
  let main_v84 : FVec F S160x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S12x16 .f32 := Host.absf main_arg11
  let main_cst_20 : FVec F S_ .f32 := constant S_ .f32 0x7F800000#32
  let main_v55 : FVec F S12x16 .f32 := broadcastInDim S12x16 ![] bcast_S_S12x16 main_cst_20
  let main_v56 : IVec S12x16 1 := cmpf .olt main_v54 main_v55
  let main_c_21 : IVec S_ 1 := constantI S_ 1 1#1
  let main_v57 : IVec S_ 1 := (fun x v => Host.reduce IntOp.andi x v reducesTo_S12x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S20x32 .f32 := Host.absf main_arg13
  let main_cst_24 : FVec F S_ .f32 := constant S_ .f32 0x7F800000#32
  let main_v65 : FVec F S20x32 .f32 := broadcastInDim S20x32 ![] bcast_S_S20x32 main_cst_24
  let main_v66 : IVec S20x32 1 := cmpf .olt main_v64 main_v65
  let main_c_25 : IVec S_ 1 := constantI S_ 1 1#1
  let main_v67 : IVec S_ 1 := (fun x v => Host.reduce IntOp.andi x v reducesTo_S20x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v33 : IVec S_ 1) : IVec S_ 1 :=
  let main_v34 : FVec F S2x16 .f32 := Host.absf main_arg7
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S36x32 .f32 := Host.absf main_arg9
  let main_cst_16 : FVec F S_ .f32 := constant S_ .f32 0x7F800000#32
  let main_v45 : FVec F S36x32 .f32 := broadcastInDim S36x32 ![] bcast_S_S36x32 main_cst_16
  let main_v46 : IVec S36x32 1 := cmpf .olt main_v44 main_v45
  let main_c_17 : IVec S_ 1 := constantI S_ 1 1#1
  let main_v47 : IVec S_ 1 := (fun x v => Host.reduce IntOp.andi x v reducesTo_S36x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16 .f32) (main_arg5 : FVec F S6x16 .f32) (main_arg6 : FVec F S16 .f32) (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v13 : IVec S_ 1) (main_v16 : IVec S6x16 1) : IVec S_ 1 :=
  let main_c_5 : IVec S_ 1 := constantI S_ 1 1#1
  let main_v17 : IVec S_ 1 := (fun x v => Host.reduce IntOp.andi x v reducesTo_S6x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S6x16 .f32 := Host.absf main_arg5
  let main_cst_8 : FVec F S_ .f32 := constant S_ .f32 0x7F800000#32
  let main_v25 : FVec F S6x16 .f32 := broadcastInDim S6x16 ![] bcast_S_S6x16 main_cst_8
  let main_v26 : IVec S6x16 1 := cmpf .olt main_v24 main_v25
  let main_c_9 : IVec S_ 1 := constantI S_ 1 1#1
  let main_v27 : IVec S_ 1 := (fun x v => Host.reduce IntOp.andi x v reducesTo_S6x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S524288x94 .f32) (main_arg1 : FVec F S12x32 .f32) (main_arg2 : FVec F S32 .f32) (main_arg3 : FVec F S6x16 .f32) (main_arg4 : FVec F S16 .f32) (main_arg5 : FVec F S6x16 .f32) (main_arg6 : FVec F S16 .f32) (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) : IVec S_ 1 :=
  let main_v0 : FVec F S524288x94 .f32 := Host.absf main_arg0
  let main_cst : FVec F S_ .f32 := constant S_ .f32 0x7F800000#32
  let main_v1 : FVec F S524288x94 .f32 := broadcastInDim S524288x94 ![] bcast_S_S524288x94 main_cst
  let main_v2 : IVec S524288x94 1 := cmpf .olt main_v0 main_v1
  let main_c : IVec S_ 1 := constantI S_ 1 1#1
  let main_v3 : IVec S_ 1 := (fun x v => Host.reduce IntOp.andi x v reducesTo_S524288x94_S_d0_1 h_S_) main_v2 main_c
  let main_v4 : FVec F S12x32 .f32 := Host.absf main_arg1
  let main_cst_0 : FVec F S_ .f32 := constant S_ .f32 0x7F800000#32
  let main_v5 : FVec F S12x32 .f32 := broadcastInDim S12x32 ![] bcast_S_S12x32 main_cst_0
  let main_v6 : IVec S12x32 1 := cmpf .olt main_v4 main_v5
  let main_c_1 : IVec S_ 1 := constantI S_ 1 1#1
  let main_v7 : IVec S_ 1 := (fun x v => Host.reduce IntOp.andi x v reducesTo_S12x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S6x16 .f32 := Host.absf main_arg3
  let main_cst_4 : FVec F S_ .f32 := constant S_ .f32 0x7F800000#32
  let main_v15 : FVec F S6x16 .f32 := broadcastInDim S6x16 ![] bcast_S_S6x16 main_cst_4
  let main_v16 : IVec S6x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S_ : Shape := ⟨0, ![]⟩
abbrev S94x160 : Shape := ⟨2, ![94, 160]⟩
abbrev S1 : Shape := ⟨1, ![1]⟩
abbrev S2 : Shape := ⟨1, ![2]⟩
abbrev S1x160 : Shape := ⟨2, ![1, 160]⟩
abbrev S1x128 : Shape := ⟨2, ![1, 128]⟩
abbrev S524288x128 : Shape := ⟨2, ![524288, 128]⟩
abbrev S4096x94 : Shape := ⟨2, ![4096, 94]⟩
abbrev S4096x128 : Shape := ⟨2, ![4096, 128]⟩
abbrev S4096x160 : Shape := ⟨2, ![4096, 160]⟩
abbrev S4096 : Shape := ⟨1, ![4096]⟩
abbrev S4096x1 : Shape := ⟨2, ![4096, 1]⟩

abbrev nBuf : Space → Nat
  | .hbm => 73
  | .vmem => 12
  | .smem => 0
  | _ => 0

abbrev bufTy : (tb : Table) → Fin (tcTables nBuf tb) → BufTy
  | .hbm, ⟨0, _⟩ => ⟨S524288x94, .f32⟩
  | .hbm, ⟨1, _⟩ => ⟨S12x32, .f32⟩
  | .hbm, ⟨2, _⟩ => ⟨S32, .f32⟩
  | .hbm, ⟨3, _⟩ => ⟨S6x16, .f32⟩
  | .hbm, ⟨4, _⟩ => ⟨S16, .f32⟩
  | .hbm, ⟨5, _⟩ => ⟨S6x16, .f32⟩
  | .hbm, ⟨6, _⟩ => ⟨S16, .f32⟩
  | .hbm, ⟨7, _⟩ => ⟨S2x16, .f32⟩
  | .hbm, ⟨8, _⟩ => ⟨S16, .f32⟩
  | .hbm, ⟨9, _⟩ => ⟨S36x32, .f32⟩
  | .hbm, ⟨10, _⟩ => ⟨S32, .f32⟩
  | .hbm, ⟨11, _⟩ => ⟨S12x16, .f32⟩
  | .hbm, ⟨12, _⟩ => ⟨S16, .f32⟩
  | .hbm, ⟨13, _⟩ => ⟨S20x32, .f32⟩
  | .hbm, ⟨14, _⟩ => ⟨S32, .f32⟩
  | .hbm, ⟨15, _⟩ => ⟨S160, .f32⟩
  | .hbm, ⟨16, _⟩ => ⟨S160, .f32⟩
  | .hbm, ⟨17, _⟩ => ⟨S160x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S94x160, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S94x160, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S94x160, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S94x160, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S94x160, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S94x160, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S94x160, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S94x160, .f32⟩
  | .hbm, ⟨65, _⟩ => ⟨S160, .f32⟩
  | .hbm, ⟨66, _⟩ => ⟨S1x160, .f32⟩
  | .hbm, ⟨67, _⟩ => ⟨S1x160, .f32⟩
  | .hbm, ⟨68, _⟩ => ⟨S1x160, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S524288x128, .f32⟩
  | .local _ .vmem, ⟨0, _⟩ => ⟨S4096x94, .f32⟩
  | .local _ .vmem, ⟨1, _⟩ => ⟨S4096x94, .f32⟩
  | .local _ .vmem, ⟨2, _⟩ => ⟨S94x160, .f32⟩
  | .local _ .vmem, ⟨3, _⟩ => ⟨S1x160, .f32⟩
  | .local _ .vmem, ⟨4, _⟩ => ⟨S1x160, .f32⟩
  | .local _ .vmem, ⟨5, _⟩ => ⟨S1x160, .f32⟩
  | .local _ .vmem, ⟨6, _⟩ => ⟨S160x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S524288x94, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_c_4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_5 : Ref sig .tc := ⟨.hbm, 41, rfl⟩
abbrev main_v13 : Ref sig .tc := ⟨.hbm, 42, rfl⟩
abbrev main_c_6 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_7 : Ref sig .tc := ⟨.hbm, 47, rfl⟩
abbrev main_v17 : Ref sig .tc := ⟨.hbm, 48, rfl⟩
abbrev main_c_8 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_9 : Ref sig .tc := ⟨.hbm, 53, rfl⟩
abbrev main_v21 : Ref sig .tc := ⟨.hbm, 54, rfl⟩
abbrev main_c_10 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_11 : Ref sig .tc := ⟨.hbm, 59, rfl⟩
abbrev main_v25 : Ref sig .tc := ⟨.hbm, 60, rfl⟩
abbrev main_c_12 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x94 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S94x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S94x160 : S_.BroadcastsInDim S94x160 (![] : Fin 0 → Fin S94x160.rank)
  bcast_S_S1 : S_.BroadcastsInDim S1 (![] : Fin 0 → Fin S1.rank)
  concatenates_S1_S1_S2_d0 : Shape.Concatenates [S1, S1] S2 0
  concatenates_S32_S16_S16_S16_S32_S16_S32_S160_d0 : Shape.Concatenates [S32, S16, S16, S16, S32, S16, S32] S160 0
  shapeCasts_S160_S1x160 : S160.ShapeCasts S1x160
  shapeCasts_S128_S1x128 : S128.ShapeCasts S1x128
  inb_S4096x94_S4096x94_0_0 : ∀ a, (![0, 0] : Fin 2 → Nat) a + S4096x94.size a ≤ S4096x94.size a
  h_S4096x94 : 0 < S4096x94.numel
  bitsLt_bf16_f32 : FTy.bits .bf16 < FTy.bits .f32
  inb_S94x160_S94x160_0_0 : ∀ a, (![0, 0] : Fin 2 → Nat) a + S94x160.size a ≤ S94x160.size a
  h_S94x160 : 0 < S94x160.numel
  shapeCasts_S94x160_S94x160 : S94x160.ShapeCasts S94x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S4096x160 : S1x160.Broadcasts S4096x160
  reduces_S4096x160_S4096 : S4096x160.Reduces [1] S4096
  shapeCasts_S4096_S4096x1 : S4096.ShapeCasts S4096x1
  broadcasts_S4096x1_S4096x160 : S4096x1.Broadcasts S4096x160
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  scatter_S94x160_S2_S12x32_01_n_01_0_wf : ScatterDims.WF S94x160 S2 S12x32 [0, 1] [] [0, 1] 0
  scatter_S94x160_S2_S6x16_01_n_01_0_wf : ScatterDims.WF S94x160 S2 S6x16 [0, 1] [] [0, 1] 0
  scatter_S94x160_S2_S2x16_01_n_01_0_wf : ScatterDims.WF S94x160 S2 S2x16 [0, 1] [] [0, 1] 0
  scatter_S94x160_S2_S36x32_01_n_01_0_wf : ScatterDims.WF S94x160 S2 S36x32 [0, 1] [] [0, 1] 0
  scatter_S94x160_S2_S12x16_01_n_01_0_wf : ScatterDims.WF S94x160 S2 S12x16 [0, 1] [] [0, 1] 0
  scatter_S94x160_S2_S20x32_01_n_01_0_wf : ScatterDims.WF S94x160 S2 S20x32 [0, 1] [] [0, 1] 0
  dot_S4096x94_S94x160_S4096x160_1_0_0_1_n_n_wf : DotDims.WF S4096x94 S94x160 S4096x160 [1] [0] [0] [1] [] []
  dot_S4096x160_S160x128_S4096x128_1_0_0_1_n_n_wf : DotDims.WF S4096x160 S160x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x94.size a ≤ S524288x94.size a
  hwx0_0 : ∀ i : grid0.Coords, EltTy.bits .f32 = 32 ∨ (Rect.block (s := S524288x94) S4096x94.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S94x160.size a ≤ S94x160.size a
  hwx0_1 : ∀ i : grid0.Coords, EltTy.bits .f32 = 32 ∨ (Rect.block (s := S94x160) S94x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x160.size a ≤ S1x160.size a
  hwx0_3 : ∀ i : grid0.Coords, EltTy.bits .f32 = 32 ∨ (Rect.block (s := S1x160) S1x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x128.size a ≤ S160x128.size a
  hwx0_5 : ∀ i : grid0.Coords, EltTy.bits .f32 = 32 ∨ (Rect.block (s := S160x128) S160x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S524288x128.size a
  hwx0_9 : ∀ i : grid0.Coords, EltTy.bits .f32 = 32 ∨ (Rect.block (s := S524288x128) S4096x128.size (cc0_transform_9 i) (hinb0_9 i)).WholeWords (EltTy.packing .f32)

variable [Facts₀]

def scatter_S94x160_S2_S12x32_01_n_01_0 : ScatterDims S94x160 S2 S12x32 where
  updateWindowDims := [0, 1]
  insertedWindowDims := []
  scatterDimsToOperandDims := [0, 1]
  indexVectorDim := 0
  wf := scatter_S94x160_S2_S12x32_01_n_01_0_wf
def scatter_S94x160_S2_S6x16_01_n_01_0 : ScatterDims S94x160 S2 S6x16 where
  updateWindowDims := [0, 1]
  insertedWindowDims := []
  scatterDimsToOperandDims := [0, 1]
  indexVectorDim := 0
  wf := scatter_S94x160_S2_S6x16_01_n_01_0_wf
def scatter_S94x160_S2_S2x16_01_n_01_0 : ScatterDims S94x160 S2 S2x16 where
  updateWindowDims := [0, 1]
  insertedWindowDims := []
  scatterDimsToOperandDims := [0, 1]
  indexVectorDim := 0
  wf := scatter_S94x160_S2_S2x16_01_n_01_0_wf
def scatter_S94x160_S2_S36x32_01_n_01_0 : ScatterDims S94x160 S2 S36x32 where
  updateWindowDims := [0, 1]
  insertedWindowDims := []
  scatterDimsToOperandDims := [0, 1]
  indexVectorDim := 0
  wf := scatter_S94x160_S2_S36x32_01_n_01_0_wf
def scatter_S94x160_S2_S12x16_01_n_01_0 : ScatterDims S94x160 S2 S12x16 where
  updateWindowDims := [0, 1]
  insertedWindowDims := []
  scatterDimsToOperandDims := [0, 1]
  indexVectorDim := 0
  wf := scatter_S94x160_S2_S12x16_01_n_01_0_wf
def scatter_S94x160_S2_S20x32_01_n_01_0 : ScatterDims S94x160 S2 S20x32 where
  updateWindowDims := [0, 1]
  insertedWindowDims := []
  scatterDimsToOperandDims := [0, 1]
  indexVectorDim := 0
  wf := scatter_S94x160_S2_S20x32_01_n_01_0_wf
def dot_S4096x94_S94x160_S4096x160_1_0_0_1_n_n : DotDims S4096x94 S94x160 S4096x160 where
  lhsContracting := [1]
  rhsContracting := [0]
  lhsNonContracting := [0]
  rhsNonContracting := [1]
  lhsBatch := []
  rhsBatch := []
  wf := dot_S4096x94_S94x160_S4096x160_1_0_0_1_n_n_wf
def dot_S4096x160_S160x128_S4096x128_1_0_0_1_n_n : DotDims S4096x160 S160x128 S4096x128 where
  lhsContracting := [1]
  rhsContracting := [0]
  lhsNonContracting := [0]
  rhsNonContracting := [1]
  lhsBatch := []
  rhsBatch := []
  wf := dot_S4096x160_S160x128_S4096x128_1_0_0_1_n_n_wf

abbrev win0_0 : Pipeline.Window sig grid0 :=
  Pipeline.Window.ofSpec (Memref.whole main_arg0) S4096x94.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S94x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S160x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S524288x12 : Shape := ⟨2, ![524288, 12]⟩
abbrev S524288x32 : Shape := ⟨2, ![524288, 32]⟩
abbrev S1x32 : Shape := ⟨2, ![1, 32]⟩
abbrev S_ : Shape := ⟨0, ![]⟩
abbrev S524288x6 : Shape := ⟨2, ![524288, 6]⟩
abbrev S524288x16 : Shape := ⟨2, ![524288, 16]⟩
abbrev S1x16 : Shape := ⟨2, ![1, 16]⟩
abbrev S524288x2 : Shape := ⟨2, ![524288, 2]⟩
abbrev S524288x36 : Shape := ⟨2, ![524288, 36]⟩
abbrev S524288x20 : Shape := ⟨2, ![524288, 20]⟩
abbrev S524288x160 : Shape := ⟨2, ![524288, 160]⟩
abbrev S524288 : Shape := ⟨1, ![524288]⟩
abbrev S524288x1 : Shape := ⟨2, ![524288, 1]⟩
abbrev S1x160 : Shape := ⟨2, ![1, 160]⟩
abbrev S524288x128 : Shape := ⟨2, ![524288, 128]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S524288x94, .f32⟩
  | 1 => ⟨S12x32, .f32⟩
  | 2 => ⟨S32, .f32⟩
  | 3 => ⟨S6x16, .f32⟩
  | 4 => ⟨S16, .f32⟩
  | 5 => ⟨S6x16, .f32⟩
  | 6 => ⟨S16, .f32⟩
  | 7 => ⟨S2x16, .f32⟩
  | 8 => ⟨S16, .f32⟩
  | 9 => ⟨S36x32, .f32⟩
  | 10 => ⟨S32, .f32⟩
  | 11 => ⟨S12x16, .f32⟩
  | 12 => ⟨S16, .f32⟩
  | 13 => ⟨S20x32, .f32⟩
  | 14 => ⟨S32, .f32⟩
  | 15 => ⟨S160, .f32⟩
  | 16 => ⟨S160, .f32⟩
  | 17 => ⟨S160x128, .f32⟩
  | 18 => ⟨S128, .f32⟩
  | 19 => ⟨S128, .f32⟩
  | 20 => ⟨S128, .f32⟩
  | 21 => ⟨S524288x12, .f32⟩
  | 22 => ⟨S524288x32, .f32⟩
  | 23 => ⟨S1x32, .f32⟩
  | 24 => ⟨S524288x32, .f32⟩
  | 25 => ⟨S524288x32, .f32⟩
  | 26 => ⟨S_, .f32⟩
  | 27 => ⟨S524288x32, .f32⟩
  | 28 => ⟨S524288x32, .f32⟩
  | 29 => ⟨S524288x6, .f32⟩
  | 30 => ⟨S524288x16, .f32⟩
  | 31 => ⟨S1x16, .f32⟩
  | 32 => ⟨S524288x16, .f32⟩
  | 33 => ⟨S524288x16, .f32⟩
  | 34 => ⟨S_, .f32⟩
  | 35 => ⟨S524288x16, .f32⟩
  | 36 => ⟨S524288x16, .f32⟩
  | 37 => ⟨S524288x6, .f32⟩
  | 38 => ⟨S524288x16, .f32⟩
  | 39 => ⟨S1x16, .f32⟩
  | 40 => ⟨S524288x16, .f32⟩
  | 41 => ⟨S524288x16, .f32⟩
  | 42 => ⟨S_, .f32⟩
  | 43 => ⟨S524288x16, .f32⟩
  | 44 => ⟨S524288x16, .f32⟩
  | 45 => ⟨S524288x2, .f32⟩
  | 46 => ⟨S524288x16, .f32⟩
  | 47 => ⟨S1x16, .f32⟩
  | 48 => ⟨S524288x16, .f32⟩
  | 49 => ⟨S524288x16, .f32⟩
  | 50 => ⟨S_, .f32⟩
  | 51 => ⟨S524288x16, .f32⟩
  | 52 => ⟨S524288x16, .f32⟩
  | 53 => ⟨S524288x36, .f32⟩
  | 54 => ⟨S524288x32, .f32⟩
  | 55 => ⟨S1x32, .f32⟩
  | 56 => ⟨S524288x32, .f32⟩
  | 57 => ⟨S524288x32, .f32⟩
  | 58 => ⟨S_, .f32⟩
  | 59 => ⟨S524288x32, .f32⟩
  | 60 => ⟨S524288x32, .f32⟩
  | 61 => ⟨S524288x12, .f32⟩
  | 62 => ⟨S524288x16, .f32⟩
  | 63 => ⟨S1x16, .f32⟩
  | 64 => ⟨S524288x16, .f32⟩
  | 65 => ⟨S524288x16, .f32⟩
  | 66 => ⟨S_, .f32⟩
  | 67 => ⟨S524288x16, .f32⟩
  | 68 => ⟨S524288x16, .f32⟩
  | 69 => ⟨S524288x20, .f32⟩
  | 70 => ⟨S524288x32, .f32⟩
  | 71 => ⟨S1x32, .f32⟩
  | 72 => ⟨S524288x32, .f32⟩
  | 73 => ⟨S524288x32, .f32⟩
  | 74 => ⟨S_, .f32⟩
  | 75 => ⟨S524288x32, .f32⟩
  | 76 => ⟨S524288x32, .f32⟩
  | 77 => ⟨S524288x160, .f32⟩
  | 78 => ⟨S_, .f32⟩
  | 79 => ⟨S524288, .f32⟩
  | 80 => ⟨S524288x1, .f32⟩
  | 81 => ⟨S_, .f32⟩
  | 82 => ⟨S524288x1, .f32⟩
  | 83 => ⟨S524288x1, .f32⟩
  | 84 => ⟨S524288x160, .f32⟩
  | 85 => ⟨S524288x160, .f32⟩
  | 86 => ⟨S524288x160, .f32⟩
  | 87 => ⟨S_, .f32⟩
  | 88 => ⟨S524288, .f32⟩
  | 89 => ⟨S524288x1, .f32⟩
  | 90 => ⟨S_, .f32⟩
  | 91 => ⟨S524288x1, .f32⟩
  | 92 => ⟨S524288x1, .f32⟩
  | 93 => ⟨S524288x160, .f32⟩
  | 94 => ⟨S524288x160, .f32⟩
  | 95 => ⟨S_, .f32⟩
  | 96 => ⟨S524288x1, .f32⟩
  | 97 => ⟨S524288x1, .f32⟩
  | 98 => ⟨S524288x1, .f32⟩
  | 99 => ⟨S524288x160, .f32⟩
  | 100 => ⟨S524288x160, .f32⟩
  | 101 => ⟨S1x160, .f32⟩
  | 102 => ⟨S524288x160, .f32⟩
  | 103 => ⟨S524288x160, .f32⟩
  | 104 => ⟨S1x160, .f32⟩
  | 105 => ⟨S524288x160, .f32⟩
  | 106 => ⟨S524288x160, .f32⟩
  | 107 => ⟨S_, .f32⟩
  | 108 => ⟨S524288x160, .f32⟩
  | 109 => ⟨S524288x160, .f32⟩
  | 110 => ⟨S524288x128, .f32⟩
  | 111 => ⟨S1x128, .f32⟩
  | 112 => ⟨S524288x128, .f32⟩
  | 113 => ⟨S524288x128, .f32⟩
  | 114 => ⟨S_, .f32⟩
  | 115 => ⟨S524288, .f32⟩
  | 116 => ⟨S524288x1, .f32⟩
  | 117 => ⟨S_, .f32⟩
  | 118 => ⟨S524288x1, .f32⟩
  | 119 => ⟨S524288x1, .f32⟩
  | 120 => ⟨S524288x128, .f32⟩
  | 121 => ⟨S524288x128, .f32⟩
  | 122 => ⟨S524288x128, .f32⟩
  | 123 => ⟨S_, .f32⟩
  | 124 => ⟨S524288, .f32⟩
  | 125 => ⟨S524288x1, .f32⟩
  | 126 => ⟨S_, .f32⟩
  | 127 => ⟨S524288x1, .f32⟩
  | _ => ⟨S524288x94, .f32⟩

abbrev hbmTy0_1 (i : Nat) : BufTy := match i % 128 with
  | 0 => ⟨S524288x1, .f32⟩
  | 1 => ⟨S524288x128, .f32⟩
  | 2 => ⟨S524288x128, .f32⟩
  | 3 => ⟨S_, .f32⟩
  | 4 => ⟨S524288x1, .f32⟩
  | 5 => ⟨S524288x1, .f32⟩
  | 6 => ⟨S524288x1, .f32⟩
  | 7 => ⟨S524288x128, .f32⟩
  | 8 => ⟨S524288x128, .f32⟩
  | 9 => ⟨S1x128, .f32⟩
  | 10 => ⟨S524288x128, .f32⟩
  | 11 => ⟨S524288x128, .f32⟩
  | 12 => ⟨S1x128, .f32⟩
  | 13 => ⟨S524288x128, .f32⟩
  | 14 => ⟨S524288x128, .f32⟩
  | 15 => ⟨S_, .f32⟩
  | 16 => ⟨S524288x128, .f32⟩
  | 17 => ⟨S524288x128, .f32⟩
  | _ => ⟨S524288x94, .f32⟩

abbrev hbmTy (i : Nat) : BufTy := match i / 128 with
  | 0 => hbmTy0_0 i
  | 1 => hbmTy0_1 i
  | _ => ⟨S524288x94, .f32⟩

abbrev bufTy : (tb : Table) → Fin (tcTables nBuf tb) → BufTy
  | .hbm, ⟨i, _⟩ => hbmTy i
  | _, _ => ⟨S524288x94, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_cst : Ref sig .tc := ⟨.hbm, 50, rfl⟩
abbrev main_call3_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call4_cst : Ref sig .tc := ⟨.hbm, 58, rfl⟩
abbrev main_call4_v0 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call5_cst : Ref sig .tc := ⟨.hbm, 66, rfl⟩
abbrev main_call5_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call6_cst : Ref sig .tc := ⟨.hbm, 74, rfl⟩
abbrev main_call6_v0 : Ref sig .tc := ⟨.hbm, 75, rfl⟩
abbrev main_v41 : Ref sig .tc := ⟨.hbm, 76, rfl⟩
abbrev main_v42 : Ref sig .tc := ⟨.hbm, 77, rfl⟩
abbrev main_cst : Ref sig .tc := ⟨.hbm, 78, rfl⟩
abbrev main_v43 : Ref sig .tc := ⟨.hbm, 79, rfl⟩
abbrev main_v44 : Ref sig .tc := ⟨.hbm, 80, rfl⟩
abbrev main_cst_0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_1 : Ref sig .tc := ⟨.hbm, 87, rfl⟩
abbrev main_v50 : Ref sig .tc := ⟨.hbm, 88, rfl⟩
abbrev main_v51 : Ref sig .tc := ⟨.hbm, 89, rfl⟩
abbrev main_cst_2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_3 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call7_cst : Ref sig .tc := ⟨.hbm, 107, rfl⟩
abbrev main_call7_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_4 : Ref sig .tc := ⟨.hbm, 114, rfl⟩
abbrev main_v72 : Ref sig .tc := ⟨.hbm, 115, rfl⟩
abbrev main_v73 : Ref sig .tc := ⟨.hbm, 116, rfl⟩
abbrev main_cst_5 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_6 : Ref sig .tc := ⟨.hbm, 123, rfl⟩
abbrev main_v79 : Ref sig .tc := ⟨.hbm, 124, rfl⟩
abbrev main_v80 : Ref sig .tc := ⟨.hbm, 125, rfl⟩
abbrev main_cst_7 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_8 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_call8_cst : Ref sig .tc := ⟨.hbm, 143, rfl⟩
abbrev main_call8_v0 : Ref sig .tc := ⟨.hbm, 144, rfl⟩
abbrev main_v96 : Ref sig .tc := ⟨.hbm, 145, rfl⟩

abbrev nD : Nat := 1
abbrev τ : Topo := Topo.v7x

variable {F : FTy → Type} [FloatOps F]

class Facts₀ : Prop where
  slices_S524288x94_S524288x12_0_0 : S524288x94.Slices ![0, 0] S524288x12
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  slices_S524288x94_S524288x6_0_12 : S524288x94.Slices ![0, 12] S524288x6
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  slices_S524288x94_S524288x6_0_18 : S524288x94.Slices ![0, 18] S524288x6
  slices_S524288x94_S524288x2_0_24 : S524288x94.Slices ![0, 24] S524288x2
  slices_S524288x94_S524288x36_0_26 : S524288x94.Slices ![0, 26] S524288x36
  slices_S524288x94_S524288x12_0_62 : S524288x94.Slices ![0, 62] S524288x12
  slices_S524288x94_S524288x20_0_74 : S524288x94.Slices ![0, 74] S524288x20
  concatenates_S524288x32_S524288x16_S524288x16_S524288x16_S524288x32_S524288x16_S524288x32_S524288x160_d1 : Shape.Concatenates [S524288x32, S524288x16, S524288x16, S524288x16, S524288x32, S524288x16, S524288x32] S524288x160 1
  reducesTo_S524288x160_S524288_d1 : S524288x160.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x160_0_1 : S524288x1.BroadcastsInDim S524288x160 (![0, 1] : Fin 2 → Fin S524288x160.rank)
  bcast_S160_S1x160_1 : S160.BroadcastsInDim S1x160 (![1] : Fin 1 → Fin S1x160.rank)
  bcast_S1x160_S524288x160_0_1 : S1x160.BroadcastsInDim S524288x160 (![0, 1] : Fin 2 → Fin S524288x160.rank)
  bcast_S_S524288x160 : S_.BroadcastsInDim S524288x160 (![] : Fin 0 → Fin S524288x160.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  reducesTo_S524288x128_S524288_d1 : S524288x128.ReducesTo [1] S524288
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  dot_S524288x12_S12x32_S524288x32_1_0_0_1_n_n_wf : DotDims.WF S524288x12 S12x32 S524288x32 [1] [0] [0] [1] [] []
  dot_S524288x6_S6x16_S524288x16_1_0_0_1_n_n_wf : DotDims.WF S524288x6 S6x16 S524288x16 [1] [0] [0] [1] [] []
  dot_S524288x2_S2x16_S524288x16_1_0_0_1_n_n_wf : DotDims.WF S524288x2 S2x16 S524288x16 [1] [0] [0] [1] [] []
  dot_S524288x36_S36x32_S524288x32_1_0_0_1_n_n_wf : DotDims.WF S524288x36 S36x32 S524288x32 [1] [0] [0] [1] [] []
  dot_S524288x12_S12x16_S524288x16_1_0_0_1_n_n_wf : DotDims.WF S524288x12 S12x16 S524288x16 [1] [0] [0] [1] [] []
  dot_S524288x20_S20x32_S524288x32_1_0_0_1_n_n_wf : DotDims.WF S524288x20 S20x32 S524288x32 [1] [0] [0] [1] [] []
  dot_S524288x160_S160x128_S524288x128_1_0_0_1_n_n_wf : DotDims.WF S524288x160 S160x128 S524288x128 [1] [0] [0] [1] [] []

variable [Facts₀]

def dot_S524288x12_S12x32_S524288x32_1_0_0_1_n_n : DotDims S524288x12 S12x32 S524288x32 where
  lhsContracting := [1]
  rhsContracting := [0]
  lhsNonContracting := [0]
  rhsNonContracting := [1]
  lhsBatch := []
  rhsBatch := []
  wf := dot_S524288x12_S12x32_S524288x32_1_0_0_1_n_n_wf
def dot_S524288x6_S6x16_S524288x16_1_0_0_1_n_n : DotDims S524288x6 S6x16 S524288x16 where
  lhsContracting := [1]
  rhsContracting := [0]
  lhsNonContracting := [0]
  rhsNonContracting := [1]
  lhsBatch := []
  rhsBatch := []
  wf := dot_S524288x6_S6x16_S524288x16_1_0_0_1_n_n_wf
def dot_S524288x2_S2x16_S524288x16_1_0_0_1_n_n : DotDims S524288x2 S2x16 S524288x16 where
  lhsContracting := [1]
  rhsContracting := [0]
  lhsNonContracting := [0]
  rhsNonContracting := [1]
  lhsBatch := []
  rhsBatch := []
  wf := dot_S524288x2_S2x16_S524288x16_1_0_0_1_n_n_wf
def dot_S524288x36_S36x32_S524288x32_1_0_0_1_n_n : DotDims S524288x36 S36x32 S524288x32 where
  lhsContracting := [1]
  rhsContracting := [0]
  lhsNonContracting := [0]
  rhsNonContracting := [1]
  lhsBatch := []
  rhsBatch := []
  wf := dot_S524288x36_S36x32_S524288x32_1_0_0_1_n_n_wf
def dot_S524288x12_S12x16_S524288x16_1_0_0_1_n_n : DotDims S524288x12 S12x16 S524288x16 where
  lhsContracting := [1]
  rhsContracting := [0]
  lhsNonContracting := [0]
  rhsNonContracting := [1]
  lhsBatch := []
  rhsBatch := []
  wf := dot_S524288x12_S12x16_S524288x16_1_0_0_1_n_n_wf
def dot_S524288x20_S20x32_S524288x32_1_0_0_1_n_n : DotDims S524288x20 S20x32 S524288x32 where
  lhsContracting := [1]
  rhsContracting := [0]
  lhsNonContracting := [0]
  rhsNonContracting := [1]
  lhsBatch := []
  rhsBatch := []
  wf := dot_S524288x20_S20x32_S524288x32_1_0_0_1_n_n_wf
def dot_S524288x160_S160x128_S524288x128_1_0_0_1_n_n : DotDims S524288x160 S160x128 S524288x128 where
  lhsContracting := [1]
  rhsContracting := [0]
  lhsNonContracting := [0]
  rhsNonContracting := [1]
  lhsBatch := []
  rhsBatch := []
  wf := dot_S524288x160_S160x128_S524288x128_1_0_0_1_n_n_wf

class Facts : Prop extends Facts₀ where

variable [Facts]
-- ==== Proof.BitsFrame.lean ====
import proofs.«147416_j72249939853815_2_alg».proof.Proof.Gen.Kernel.Launch
import proofs.«147416_j72249939853815_2_alg».proof.Proof.Gen.Kernel.Skeleton
import proofs.«147416_j72249939853815_2_alg».proof.Proof.Gen.Kernel.Points
import Idealize.ShloMosaic.Lib.Pipeline.FrameBody
import Idealize.ShloMosaic.Lib.Ring
import Idealize.ShloMosaic.Lib.Tactic

/-!
# The frame of the two-layer normalised projection

Host operations assemble a 94×160 block matrix (seven scatters into zeros) and a length-160 vector (a
concatenation), and reshape six vectors to rows; then one pipelined region runs over 128 points. At each point the
body loads nine input buffers whole — a 4096×94 block of the data, the block matrix, three 1×160 rows, a 160×128
matrix, three 1×128 rows —, loads the output buffer without using the value, and stores one 4096×128 value into
the output buffer whole.

This module proves, at any float interpretation `F`: the host operations write only their own results, so the
region finds every argument array as launched; each input window's buffer holds its block at every point; the body
leaves the inputs in place and the output buffer at `outBlock` of the nine input blocks; hence the whole run
terminates with every window's array at what the proof data computes (`run_main`) and every argument array
unchanged (`frame`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents, rewritten by the host
    operations in order. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The results of the host operations, in order: the only buffers they write. -/
abbrev hostWritten : List (Ref sig .tc) :=
  [main_cst, main_v0, main_c, main_v1, main_c_0, main_v2, main_v3, main_v4, main_c_1, main_v5, main_c_2, main_v6, main_v7, main_v8, main_c_3, main_v9, main_c_4, main_v10, main_v11, main_v12, main_c_5, main_v13, main_c_6, main_v14, main_v15, main_v16, main_c_7, main_v17, main_c_8, main_v18, main_v19, main_v20, main_c_9, main_v21, main_c_10, main_v22, main_v23, main_v24, main_c_11, main_v25, main_c_12, main_v26, main_v27, main_v28, main_v29, main_v30, main_v31, main_v32, main_v33, main_v34, main_v35]

/-- Each host operation writes its one result, and that result is in the list. -/
theorem hostOps0_writes : (hostOps0 : List (HloOp τ sig (Elt F))).Forall fun op =>
    op.writes ⊆ (hostWritten.map (Proc.devRef (τ := τ) .tc)).toFinset := by
  simp only [List.Forall, StableHlo.nullary_writes, StableHlo.unary_writes, StableHlo.binary_writes,
    StableHlo.ternary_writes, StableHlo.reshape_writes, StableHlo.nary_writes, Finset.singleton_subset_iff,
    List.mem_toFinset]
  repeat' apply And.intro
  all_goals exact List.mem_map_of_mem (by decide)

/-- A buffer that is no host operation's result is found by the region as it was launched. -/
theorem V_of_unwritten (c : Dev nD) {b : Ref sig .tc} (hb : b ∉ hostWritten) :
    V m c b = m ((c : Thread nD τ).loc b) :=
  StableHlo.after_of_writes_sub (τ := τ) hostOps0 (fun b => m (c, b)) hostOps0_writes hb

/-! Every argument array is such a buffer. -/
theorem V_main_arg0 (c : Dev nD) : V m c main_arg0 = m ((c : Thread nD τ).loc main_arg0) :=
  V_of_unwritten m c (by decide)
theorem V_main_arg1 (c : Dev nD) : V m c main_arg1 = m ((c : Thread nD τ).loc main_arg1) :=
  V_of_unwritten m c (by decide)
theorem V_main_arg2 (c : Dev nD) : V m c main_arg2 = m ((c : Thread nD τ).loc main_arg2) :=
  V_of_unwritten m c (by decide)
theorem V_main_arg3 (c : Dev nD) : V m c main_arg3 = m ((c : Thread nD τ).loc main_arg3) :=
  V_of_unwritten m c (by decide)
theorem V_main_arg4 (c : Dev nD) : V m c main_arg4 = m ((c : Thread nD τ).loc main_arg4) :=
  V_of_unwritten m c (by decide)
theorem V_main_arg5 (c : Dev nD) : V m c main_arg5 = m ((c : Thread nD τ).loc main_arg5) :=
  V_of_unwritten m c (by decide)
theorem V_main_arg6 (c : Dev nD) : V m c main_arg6 = m ((c : Thread nD τ).loc main_arg6) :=
  V_of_unwritten m c (by decide)
theorem V_main_arg7 (c : Dev nD) : V m c main_arg7 = m ((c : Thread nD τ).loc main_arg7) :=
  V_of_unwritten m c (by decide)
theorem V_main_arg8 (c : Dev nD) : V m c main_arg8 = m ((c : Thread nD τ).loc main_arg8) :=
  V_of_unwritten m c (by decide)
theorem V_main_arg9 (c : Dev nD) : V m c main_arg9 = m ((c : Thread nD τ).loc main_arg9) :=
  V_of_unwritten m c (by decide)
theorem V_main_arg10 (c : Dev nD) : V m c main_arg10 = m ((c : Thread nD τ).loc main_arg10) :=
  V_of_unwritten m c (by decide)
theorem V_main_arg11 (c : Dev nD) : V m c main_arg11 = m ((c : Thread nD τ).loc main_arg11) :=
  V_of_unwritten m c (by decide)
theorem V_main_arg12 (c : Dev nD) : V m c main_arg12 = m ((c : Thread nD τ).loc main_arg12) :=
  V_of_unwritten m c (by decide)
theorem V_main_arg13 (c : Dev nD) : V m c main_arg13 = m ((c : Thread nD τ).loc main_arg13) :=
  V_of_unwritten m c (by decide)
theorem V_main_arg14 (c : Dev nD) : V m c main_arg14 = m ((c : Thread nD τ).loc main_arg14) :=
  V_of_unwritten m c (by decide)
theorem V_main_arg15 (c : Dev nD) : V m c main_arg15 = m ((c : Thread nD τ).loc main_arg15) :=
  V_of_unwritten m c (by decide)
theorem V_main_arg16 (c : Dev nD) : V m c main_arg16 = m ((c : Thread nD τ).loc main_arg16) :=
  V_of_unwritten m c (by decide)
theorem V_main_arg17 (c : Dev nD) : V m c main_arg17 = m ((c : Thread nD τ).loc main_arg17) :=
  V_of_unwritten m c (by decide)
theorem V_main_arg18 (c : Dev nD) : V m c main_arg18 = m ((c : Thread nD τ).loc main_arg18) :=
  V_of_unwritten m c (by decide)
theorem V_main_arg19 (c : Dev nD) : V m c main_arg19 = m ((c : Thread nD τ).loc main_arg19) :=
  V_of_unwritten m c (by decide)
theorem V_main_arg20 (c : Dev nD) : V m c main_arg20 = m ((c : Thread nD τ).loc main_arg20) :=
  V_of_unwritten m c (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: where it is fetched the transfer
    puts it there, and where it is not the block index has not moved and the body left the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run ending with every window's array at what the proof data computes and every other unscoped buffer
    as the region found it, each argument array ends as launched: an argument a window stages is an input
    window's array, which the run leaves at its entry contents; any other bypasses the region; and the region
    finds every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 5).trans (((dats 0 c).arrAt_in 5 rfl _).trans ((hA c 5).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's accesses: every buffer whole -/

abbrev rX : Rect S4096x94 := Rect.unit (s := S4096x94) ![0, 0] S4096x94.size inb_S4096x94_S4096x94_0_0
abbrev rW1 : Rect S94x160 := Rect.unit (s := S94x160) ![0, 0] S94x160.size inb_S94x160_S94x160_0_0
abbrev rRow160 : Rect S1x160 := Rect.unit (s := S1x160) ![0, 0] S1x160.size inb_S1x160_S1x160_0_0
abbrev rW2 : Rect S160x128 := Rect.unit (s := S160x128) ![0, 0] S160x128.size inb_S160x128_S160x128_0_0
abbrev rRow128 : Rect S1x128 := Rect.unit (s := S1x128) ![0, 0] S1x128.size inb_S1x128_S1x128_0_0
abbrev rOut : Rect S4096x128 := Rect.unit (s := S4096x128) ![0, 0] S4096x128.size inb_S4096x128_S4096x128_0_0

/-! ## What the body leaves in the output window's buffer -/

/-- The output buffer after the body, from the nine input blocks: its one store, of the second stage's value
    computed from the first stage's value and the loaded second-stage parameters. -/
def outBlock (x0 : Vec F S4096x94 .f32) (x1 : Vec F S94x160 .f32) (x2 x3 x4 : Vec F S1x160 .f32)
    (x5 : Vec F S160x128 .f32) (x6 x7 x8 : Vec F S1x128 .f32) : Vec F S4096x128 .f32 :=
  View.canon [⟨rOut, k0_pay1 (k0_pay2 (View.ld x0 rX) (View.ld x1 rW1) (View.ld x2 rRow160) (View.ld x3 rRow160) (View.ld x4 rRow160))
    (View.ld x5 rW2) (View.ld x6 rRow128) (View.ld x7 rRow128) (View.ld x8 rRow128)⟩]

/-- The one store is of the whole buffer, so it covers it. -/
theorem outCover (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triple -/

set_option maxHeartbeats 4000000 in
/-- The kernel body on whole buffers, the nine inputs at read contents `x0 … x8` and the output at anything, runs
    to the continuation with the inputs as they were and the output at `outBlock` of the inputs: every access is
    a load or the one store of a whole buffer, the output's load is of whatever it held and its value unused. -/
theorem sound_kernel (c : Dev nD) (E : Set ℕ) (i : grid0.Coords) (arg1 : Memref sig .tc .vmem S4096x94 .f32) (harg1 : arg1.IsWhole) (arg2 : Memref sig .tc .vmem S94x160 .f32) (harg2 : arg2.IsWhole) (arg3 : Memref sig .tc .vmem S1x160 .f32) (harg3 : arg3.IsWhole) (arg4 : Memref sig .tc .vmem S1x160 .f32) (harg4 : arg4.IsWhole) (arg5 : Memref sig .tc .vmem S1x160 .f32) (harg5 : arg5.IsWhole) (arg6 : Memref sig .tc .vmem S160x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4096x128 .f32) (harg10 : arg10.IsWhole)
    (x0 : Vec F S4096x94 .f32) (x1 : Vec F S94x160 .f32) (x2 : Vec F S1x160 .f32) (x3 : Vec F S1x160 .f32) (x4 : Vec F S1x160 .f32) (x5 : Vec F S160x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outCover _)

/-! ## The pipeline's proof data -/

/-- The proof data of the pipeline on core `c`: the arrays as the region finds them; after the body at point
    `t` each input's buffer still at its block and the output's at `outBlock` of the nine input blocks; the
    invariant the untouched scratch and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) :
    (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

/-! Each input's current staging buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic point -/

/-- What the body is called with at point `t`: the invariant, the core's dues, and each window's current buffer
    at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has each window's array at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to completion without fault and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- info: 'Cert.Kernel.Hand.frame' depends on axioms: [propext, Classical.choice, Quot.sound] -/
#guard_msgs in #print axioms frame

end Cert.Kernel.Hand

end
-- ==== Proof.IdealFrame.lean ====
import proofs.«147416_j72249939853815_2_alg».proof.Proof.Gen.KernelIdeal.Launch
import proofs.«147416_j72249939853815_2_alg».proof.Proof.Gen.KernelIdeal.Skeleton
import proofs.«147416_j72249939853815_2_alg».proof.Proof.Gen.KernelIdeal.Points
import Idealize.ShloMosaic.Lib.Pipeline.FrameBody
import Idealize.ShloMosaic.Lib.Ring
import Idealize.ShloMosaic.Lib.Tactic

/-!
# The frame of the two-layer normalised projection

Host operations assemble a 94×160 block matrix (seven scatters into zeros) and a length-160 vector (a
concatenation), and reshape six vectors to rows; then one pipelined region runs over 128 points. At each point the
body loads nine input buffers whole — a 4096×94 block of the data, the block matrix, three 1×160 rows, a 160×128
matrix, three 1×128 rows —, loads the output buffer without using the value, and stores one 4096×128 value into
the output buffer whole.

This module proves, at any float interpretation `F`: the host operations write only their own results, so the
region finds every argument array as launched; each input window's buffer holds its block at every point; the body
leaves the inputs in place and the output buffer at `outBlock` of the nine input blocks; hence the whole run
terminates with every window's array at what the proof data computes (`run_main`) and every argument array
unchanged (`frame`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents, rewritten by the host
    operations in order. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The results of the host operations, in order: the only buffers they write. -/
abbrev hostWritten : List (Ref sig .tc) :=
  [main_cst, main_v0, main_c, main_v1, main_c_0, main_v2, main_v3, main_v4, main_c_1, main_v5, main_c_2, main_v6, main_v7, main_v8, main_c_3, main_v9, main_c_4, main_v10, main_v11, main_v12, main_c_5, main_v13, main_c_6, main_v14, main_v15, main_v16, main_c_7, main_v17, main_c_8, main_v18, main_v19, main_v20, main_c_9, main_v21, main_c_10, main_v22, main_v23, main_v24, main_c_11, main_v25, main_c_12, main_v26, main_v27, main_v28, main_v29, main_v30, main_v31, main_v32, main_v33, main_v34, main_v35]

/-- Each host operation writes its one result, and that result is in the list. -/
theorem hostOps0_writes : (hostOps0 : List (HloOp τ sig (Elt F))).Forall fun op =>
    op.writes ⊆ (hostWritten.map (Proc.devRef (τ := τ) .tc)).toFinset := by
  simp only [List.Forall, StableHlo.nullary_writes, StableHlo.unary_writes, StableHlo.binary_writes,
    StableHlo.ternary_writes, StableHlo.reshape_writes, StableHlo.nary_writes, Finset.singleton_subset_iff,
    List.mem_toFinset]
  repeat' apply And.intro
  all_goals exact List.mem_map_of_mem (by decide)

/-- A buffer that is no host operation's result is found by the region as it was launched. -/
theorem V_of_unwritten (c : Dev nD) {b : Ref sig .tc} (hb : b ∉ hostWritten) :
    V m c b = m ((c : Thread nD τ).loc b) :=
  StableHlo.after_of_writes_sub (τ := τ) hostOps0 (fun b => m (c, b)) hostOps0_writes hb

/-! Every argument array is such a buffer. -/
theorem V_main_arg0 (c : Dev nD) : V m c main_arg0 = m ((c : Thread nD τ).loc main_arg0) :=
  V_of_unwritten m c (by decide)
theorem V_main_arg1 (c : Dev nD) : V m c main_arg1 = m ((c : Thread nD τ).loc main_arg1) :=
  V_of_unwritten m c (by decide)
theorem V_main_arg2 (c : Dev nD) : V m c main_arg2 = m ((c : Thread nD τ).loc main_arg2) :=
  V_of_unwritten m c (by decide)
theorem V_main_arg3 (c : Dev nD) : V m c main_arg3 = m ((c : Thread nD τ).loc main_arg3) :=
  V_of_unwritten m c (by decide)
theorem V_main_arg4 (c : Dev nD) : V m c main_arg4 = m ((c : Thread nD τ).loc main_arg4) :=
  V_of_unwritten m c (by decide)
theorem V_main_arg5 (c : Dev nD) : V m c main_arg5 = m ((c : Thread nD τ).loc main_arg5) :=
  V_of_unwritten m c (by decide)
theorem V_main_arg6 (c : Dev nD) : V m c main_arg6 = m ((c : Thread nD τ).loc main_arg6) :=
  V_of_unwritten m c (by decide)
theorem V_main_arg7 (c : Dev nD) : V m c main_arg7 = m ((c : Thread nD τ).loc main_arg7) :=
  V_of_unwritten m c (by decide)
theorem V_main_arg8 (c : Dev nD) : V m c main_arg8 = m ((c : Thread nD τ).loc main_arg8) :=
  V_of_unwritten m c (by decide)
theorem V_main_arg9 (c : Dev nD) : V m c main_arg9 = m ((c : Thread nD τ).loc main_arg9) :=
  V_of_unwritten m c (by decide)
theorem V_main_arg10 (c : Dev nD) : V m c main_arg10 = m ((c : Thread nD τ).loc main_arg10) :=
  V_of_unwritten m c (by decide)
theorem V_main_arg11 (c : Dev nD) : V m c main_arg11 = m ((c : Thread nD τ).loc main_arg11) :=
  V_of_unwritten m c (by decide)
theorem V_main_arg12 (c : Dev nD) : V m c main_arg12 = m ((c : Thread nD τ).loc main_arg12) :=
  V_of_unwritten m c (by decide)
theorem V_main_arg13 (c : Dev nD) : V m c main_arg13 = m ((c : Thread nD τ).loc main_arg13) :=
  V_of_unwritten m c (by decide)
theorem V_main_arg14 (c : Dev nD) : V m c main_arg14 = m ((c : Thread nD τ).loc main_arg14) :=
  V_of_unwritten m c (by decide)
theorem V_main_arg15 (c : Dev nD) : V m c main_arg15 = m ((c : Thread nD τ).loc main_arg15) :=
  V_of_unwritten m c (by decide)
theorem V_main_arg16 (c : Dev nD) : V m c main_arg16 = m ((c : Thread nD τ).loc main_arg16) :=
  V_of_unwritten m c (by decide)
theorem V_main_arg17 (c : Dev nD) : V m c main_arg17 = m ((c : Thread nD τ).loc main_arg17) :=
  V_of_unwritten m c (by decide)
theorem V_main_arg18 (c : Dev nD) : V m c main_arg18 = m ((c : Thread nD τ).loc main_arg18) :=
  V_of_unwritten m c (by decide)
theorem V_main_arg19 (c : Dev nD) : V m c main_arg19 = m ((c : Thread nD τ).loc main_arg19) :=
  V_of_unwritten m c (by decide)
theorem V_main_arg20 (c : Dev nD) : V m c main_arg20 = m ((c : Thread nD τ).loc main_arg20) :=
  V_of_unwritten m c (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: where it is fetched the transfer
    puts it there, and where it is not the block index has not moved and the body left the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run ending with every window's array at what the proof data computes and every other unscoped buffer
    as the region found it, each argument array ends as launched: an argument a window stages is an input
    window's array, which the run leaves at its entry contents; any other bypasses the region; and the region
    finds every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 5).trans (((dats 0 c).arrAt_in 5 rfl _).trans ((hA c 5).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's accesses: every buffer whole -/

abbrev rX : Rect S4096x94 := Rect.unit (s := S4096x94) ![0, 0] S4096x94.size inb_S4096x94_S4096x94_0_0
abbrev rW1 : Rect S94x160 := Rect.unit (s := S94x160) ![0, 0] S94x160.size inb_S94x160_S94x160_0_0
abbrev rRow160 : Rect S1x160 := Rect.unit (s := S1x160) ![0, 0] S1x160.size inb_S1x160_S1x160_0_0
abbrev rW2 : Rect S160x128 := Rect.unit (s := S160x128) ![0, 0] S160x128.size inb_S160x128_S160x128_0_0
abbrev rRow128 : Rect S1x128 := Rect.unit (s := S1x128) ![0, 0] S1x128.size inb_S1x128_S1x128_0_0
abbrev rOut : Rect S4096x128 := Rect.unit (s := S4096x128) ![0, 0] S4096x128.size inb_S4096x128_S4096x128_0_0

/-! ## What the body leaves in the output window's buffer -/

/-- The output buffer after the body, from the nine input blocks: its one store, of the second stage's value
    computed from the first stage's value and the loaded second-stage parameters. -/
def outBlock (x0 : Vec F S4096x94 .f32) (x1 : Vec F S94x160 .f32) (x2 x3 x4 : Vec F S1x160 .f32)
    (x5 : Vec F S160x128 .f32) (x6 x7 x8 : Vec F S1x128 .f32) : Vec F S4096x128 .f32 :=
  View.canon [⟨rOut, k0_pay1 (k0_pay2 (View.ld x0 rX) (View.ld x1 rW1) (View.ld x2 rRow160) (View.ld x3 rRow160) (View.ld x4 rRow160))
    (View.ld x5 rW2) (View.ld x6 rRow128) (View.ld x7 rRow128) (View.ld x8 rRow128)⟩]

/-- The one store is of the whole buffer, so it covers it. -/
theorem outCover (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triple -/

set_option maxHeartbeats 4000000 in
/-- The kernel body on whole buffers, the nine inputs at read contents `x0 … x8` and the output at anything, runs
    to the continuation with the inputs as they were and the output at `outBlock` of the inputs: every access is
    a load or the one store of a whole buffer, the output's load is of whatever it held and its value unused. -/
theorem sound_kernel (c : Dev nD) (E : Set ℕ) (i : grid0.Coords) (arg1 : Memref sig .tc .vmem S4096x94 .f32) (harg1 : arg1.IsWhole) (arg2 : Memref sig .tc .vmem S94x160 .f32) (harg2 : arg2.IsWhole) (arg3 : Memref sig .tc .vmem S1x160 .f32) (harg3 : arg3.IsWhole) (arg4 : Memref sig .tc .vmem S1x160 .f32) (harg4 : arg4.IsWhole) (arg5 : Memref sig .tc .vmem S1x160 .f32) (harg5 : arg5.IsWhole) (arg6 : Memref sig .tc .vmem S160x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4096x128 .f32) (harg10 : arg10.IsWhole)
    (x0 : Vec F S4096x94 .f32) (x1 : Vec F S94x160 .f32) (x2 : Vec F S1x160 .f32) (x3 : Vec F S1x160 .f32) (x4 : Vec F S1x160 .f32) (x5 : Vec F S160x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outCover _)

/-! ## The pipeline's proof data -/

/-- The proof data of the pipeline on core `c`: the arrays as the region finds them; after the body at point
    `t` each input's buffer still at its block and the output's at `outBlock` of the nine input blocks; the
    invariant the untouched scratch and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) :
    (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

/-! Each input's current staging buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic point -/

/-- What the body is called with at point `t`: the invariant, the core's dues, and each window's current buffer
    at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has each window's array at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to completion without fault and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- info: 'Cert.KernelIdeal.Hand.frame' depends on axioms: [propext, Classical.choice, Quot.sound] -/
#guard_msgs in #print axioms frame

end Cert.KernelIdeal.Hand

end
-- ==== Proof.BlockDiag.lean ====
/-
  The two arrays the kernel's wrapper assembles before the launch, as functions of their pieces.

  `blockDiag`: a 94 × 160 matrix that is zero except for seven rectangular blocks placed down the diagonal,
  block `i` occupying rows `[r_i, r_i + h_i)` and columns `[c_i, c_i + w_i)`:
    rows  0–11  × cols   0–31   (12 × 32),   rows 12–17 × cols  32–47  (6 × 16),   rows 18–23 × cols  48–63  (6 × 16),
    rows 24–25  × cols  64–79   (2 × 16),    rows 26–61 × cols  80–111 (36 × 32),  rows 62–73 × cols 112–127 (12 × 16),
    rows 74–93  × cols 128–159  (20 × 32).
  The row ranges partition the 94 rows and the column ranges partition the 160 columns, so each column meets exactly
  one block. `joined`: the seven bias vectors laid end to end, of total length 160, cut at the same columns.
-/
import Mathlib.Data.Fin.Basic
import Mathlib.Tactic

namespace Cert.Spec

variable {α : Type}

/-- The block-diagonal matrix with fill value `z` off the blocks; the blocks are tested from the last to the first. -/
def blockDiag (z : α) (w0 : Fin 12 → Fin 32 → α) (w1 : Fin 6 → Fin 16 → α) (w2 : Fin 6 → Fin 16 → α) (w3 : Fin 2 → Fin 16 → α)
    (w4 : Fin 36 → Fin 32 → α) (w5 : Fin 12 → Fin 16 → α) (w6 : Fin 20 → Fin 32 → α) (k : Fin 94) (c : Fin 160) : α :=
  if h : 74 ≤ k.val ∧ 128 ≤ c.val then w6 ⟨k.val - 74, by omega⟩ ⟨c.val - 128, by omega⟩
  else if h : (62 ≤ k.val ∧ k.val < 74) ∧ (112 ≤ c.val ∧ c.val < 128) then w5 ⟨k.val - 62, by omega⟩ ⟨c.val - 112, by omega⟩
  else if h : (26 ≤ k.val ∧ k.val < 62) ∧ (80 ≤ c.val ∧ c.val < 112) then w4 ⟨k.val - 26, by omega⟩ ⟨c.val - 80, by omega⟩
  else if h : (24 ≤ k.val ∧ k.val < 26) ∧ (64 ≤ c.val ∧ c.val < 80) then w3 ⟨k.val - 24, by omega⟩ ⟨c.val - 64, by omega⟩
  else if h : (18 ≤ k.val ∧ k.val < 24) ∧ (48 ≤ c.val ∧ c.val < 64) then w2 ⟨k.val - 18, by omega⟩ ⟨c.val - 48, by omega⟩
  else if h : (12 ≤ k.val ∧ k.val < 18) ∧ (32 ≤ c.val ∧ c.val < 48) then w1 ⟨k.val - 12, by omega⟩ ⟨c.val - 32, by omega⟩
  else if h : k.val < 12 ∧ c.val < 32 then w0 ⟨k.val, h.1⟩ ⟨c.val, h.2⟩
  else z

/-- The seven vectors laid end to end. -/
def joined (b0 : Fin 32 → α) (b1 b2 b3 : Fin 16 → α) (b4 : Fin 32 → α) (b5 : Fin 16 → α) (b6 : Fin 32 → α) (c : Fin 160) : α :=
  if h : c.val < 32 then b0 ⟨c.val, h⟩
  else if h : c.val < 48 then b1 ⟨c.val - 32, by omega⟩
  else if h : c.val < 64 then b2 ⟨c.val - 48, by omega⟩
  else if h : c.val < 80 then b3 ⟨c.val - 64, by omega⟩
  else if h : c.val < 112 then b4 ⟨c.val - 80, by omega⟩
  else if h : c.val < 128 then b5 ⟨c.val - 112, by omega⟩
  else b6 ⟨c.val - 128, by omega⟩

end Cert.Spec
-- ==== Proof.Spec.lean ====
/-
  The function both programs compute, one output row at a time, on the extended reals.

  A row `x` of 94 features is multiplied by the 94 × 160 block-diagonal matrix and shifted by the joined bias
  (`preAct`), clipped below at zero, normalised over its 160 entries (`layerNorm`: subtract the mean, multiply by the
  inverse square root of the variance plus ε, scale and shift), clipped again, multiplied by a 160 × 128 matrix and
  shifted, normalised over its 128 entries and clipped (`rowOut`).

  Because every column of the block-diagonal matrix meets exactly one block and is zero elsewhere, the product of a
  row with that column is the product of the block's slice of the row with the block's column (`sum_window`): this is
  the one law that joins the kernel's single matrix product to the reference's seven small ones. It needs no
  finiteness: a product with zero is zero for every extended real.
-/
import Idealize.ShloMosaic.PureOps.Ideal
import proofs.«147416_j72249939853815_2_alg».proof.Proof.BlockDiag

noncomputable section

namespace Cert.Spec

open Idealize.ShloMosaic

/-- The float words both programs spell: zero, the two divisors 160 and 128, and ε. -/
abbrev zeroW : EReal := Ideal.ofBits .f32 0x00000000#32
abbrev n160W : EReal := Ideal.ofBits .f32 0x43200000#32
abbrev n128W : EReal := Ideal.ofBits .f32 0x43000000#32
abbrev epsW : EReal := Ideal.ofBits .f32 0x3727C5AC#32

/-- The mean of a finite family, as a quotient by the count word. -/
def mean {n : ℕ} (cnt : EReal) (h : Fin n → EReal) : EReal := Ideal.div (∑ l, h l) cnt

/-- Normalisation of a finite family: `((h j − μ) · (σ² + ε)^(−1/2)) · g j + b j`, with `σ²` the mean of the squared
    deviations. -/
def layerNorm {n : ℕ} (cnt eps : EReal) (h g b : Fin n → EReal) (j : Fin n) : EReal :=
  (h j - mean cnt h) * Ideal.rsqrt (mean cnt (fun l => (h l - mean cnt h) * (h l - mean cnt h)) + eps) * g j + b j

/-- A row times a matrix column by column, plus a bias. -/
def preAct {N M : ℕ} (x : Fin N → EReal) (W : Fin N → Fin M → EReal) (bias : Fin M → EReal) (j : Fin M) : EReal :=
  (∑ k, x k * W k j) + bias j

/-- One output row from the pre-activation of its first layer. -/
def rowOut (pre g1 b1 : Fin 160 → EReal) (wf : Fin 160 → Fin 128 → EReal) (bf g2 b2 : Fin 128 → EReal) (q : Fin 128) : EReal :=
  max (layerNorm n128W epsW
        (preAct (fun j => max (layerNorm n160W epsW (fun l => max (pre l) zeroW) g1 b1 j) zeroW) wf bf) g2 b2 q) zeroW

/-- A sum against a family that vanishes outside the window `[r, r + n)` is the sum over the window. -/
theorem sum_window {N n : ℕ} (r : ℕ) (hN : r + n ≤ N) (x W : Fin N → EReal) (w : Fin n → EReal)
    (hin : ∀ k : Fin n, W ⟨r + k.val, by have := k.isLt; omega⟩ = w k)
    (hout : ∀ k : Fin N, (k.val < r ∨ r + n ≤ k.val) → W k = 0) :
    ∑ k, x k * W k = ∑ k : Fin n, x ⟨r + k.val, by have := k.isLt; omega⟩ * w k := by
  symm
  refine Finset.sum_of_injOn (fun k : Fin n => (⟨r + k.val, by have := k.isLt; omega⟩ : Fin N)) ?_ ?_ ?_ ?_
  · intro a _ b _ hab
    have := congrArg Fin.val hab
    exact Fin.ext (by simpa using this)
  · intro a _; exact Finset.mem_coe.2 (Finset.mem_univ _)
  · intro k _ hk
    have : k.val < r ∨ r + n ≤ k.val := by
      by_contra hc
      have h1 : r ≤ k.val := by omega
      have h2 : k.val < r + n := by omega
      exact hk ⟨⟨k.val - r, by omega⟩, Finset.mem_coe.2 (Finset.mem_univ _), Fin.ext (by simp; omega)⟩
    rw [hout k this, mul_zero]
  · intro k _; rw [hin k]

end Cert.Spec

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.Payload.lean ====
/-
  The one value the kernel body stores, read at a row `p` and a column `q` of its 4096 × 128 block, as a function
  of the blocks it loaded: the row `p` of the loaded 4096 × 94 block goes through `Cert.Spec.rowOut` with the loaded
  weight, bias, scale and shift arrays. Each matrix product into a zero accumulator is the plain sum over the
  contracted axis; each lane reduction is the sum over the row; the unit-axis reshapes and broadcasts only move
  coordinates; a change of float format is the identity on the extended reals.
-/
import proofs.«147416_j72249939853815_2_alg».proof.Proof.Gen.KernelIdeal.Skeleton
import proofs.«147416_j72249939853815_2_alg».proof.Proof.Spec
import proofs.«147416_j72249939853815_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec Cert.LibLayout

/-- The inverse square root of an array, entry by entry. -/
theorem rsqrt_apply {s : Shape} {φ : FTy} (x : FVec Ideal s φ) (i : s.Idx) : rsqrt x i = Ideal.rsqrt (x i) := rfl

/-- The product of the 4096 × 94 block with the 94 × 160 matrix, at `(p, j)`: the sum over the 94 shared coordinates. -/
theorem first_product_apply (a : FVec Ideal S4096x94 .bf16) (b : FVec Ideal S94x160 .bf16) (p : Fin 4096) (j : Fin 160) :
    matmul dot_S4096x94_S94x160_S4096x160_1_0_0_1_n_n none a b (constant (F := Ideal) S4096x160 .f32 0x00000000#32) (ix2 p j)
      = ∑ k : Fin 94, a (ix2 p k) * b (ix2 k j) := by
  refine (Ideal.matmul_constant_zero_apply dot_S4096x94_S94x160_S4096x160_1_0_0_1_n_n none a b (ix2 p j)).trans ?_
  rw [← Equiv.sum_comp (contrEquiv1 dot_S4096x94_S94x160_S4096x160_1_0_0_1_n_n 94 rfl rfl).symm]
  refine Finset.sum_congr rfl fun k _ => ?_
  have hk := contrEquiv1_symm_val dot_S4096x94_S94x160_S4096x160_1_0_0_1_n_n 94 rfl rfl k
  have el : dot_S4096x94_S94x160_S4096x160_1_0_0_1_n_n.lhsIdx (ix2 p j) ((contrEquiv1 dot_S4096x94_S94x160_S4096x160_1_0_0_1_n_n 94 rfl rfl).symm k) = ix2 p k :=
    funext fun ax => Fin.ext (by
      match ax with
      | ⟨0, _⟩ =>
        show (dot_S4096x94_S94x160_S4096x160_1_0_0_1_n_n.lhsIdx (ix2 p j) _ 0).val = p.val
        unfold DotDims.lhsIdx
        rw [dif_neg (show ¬(0 : Fin S4096x94.rank) ∈ dot_S4096x94_S94x160_S4096x160_1_0_0_1_n_n.lhsBatch by decide),
          dif_pos (show (0 : Fin S4096x94.rank) ∈ dot_S4096x94_S94x160_S4096x160_1_0_0_1_n_n.lhsNonContracting by decide)]
        rfl
      | ⟨1, _⟩ => exact (dot_S4096x94_S94x160_S4096x160_1_0_0_1_n_n.lhsIdx_val_of_single rfl _ _).trans hk)
  have er : dot_S4096x94_S94x160_S4096x160_1_0_0_1_n_n.rhsIdx (ix2 p j) ((contrEquiv1 dot_S4096x94_S94x160_S4096x160_1_0_0_1_n_n 94 rfl rfl).symm k) = ix2 k j :=
    funext fun ax => Fin.ext (by
      match ax with
      | ⟨0, _⟩ => exact (dot_S4096x94_S94x160_S4096x160_1_0_0_1_n_n.rhsIdx_val_of_single rfl _ _).trans hk
      | ⟨1, _⟩ =>
        show (dot_S4096x94_S94x160_S4096x160_1_0_0_1_n_n.rhsIdx (ix2 p j) _ 1).val = j.val
        unfold DotDims.rhsIdx
        rw [dif_neg (show ¬(1 : Fin S94x160.rank) ∈ dot_S4096x94_S94x160_S4096x160_1_0_0_1_n_n.rhsBatch by decide),
          dif_pos (show (1 : Fin S94x160.rank) ∈ dot_S4096x94_S94x160_S4096x160_1_0_0_1_n_n.rhsNonContracting by decide)]
        rfl)
  rw [el, er]

/-- The product of the 4096 × 160 activations with the 160 × 128 matrix, at `(p, q)`: the sum over the 160 shared coordinates. -/
theorem second_product_apply (a : FVec Ideal S4096x160 .bf16) (b : FVec Ideal S160x128 .bf16) (p : Fin 4096) (j : Fin 128) :
    matmul dot_S4096x160_S160x128_S4096x128_1_0_0_1_n_n none a b (constant (F := Ideal) S4096x128 .f32 0x00000000#32) (ix2 p j)
      = ∑ k : Fin 160, a (ix2 p k) * b (ix2 k j) := by
  refine (Ideal.matmul_constant_zero_apply dot_S4096x160_S160x128_S4096x128_1_0_0_1_n_n none a b (ix2 p j)).trans ?_
  rw [← Equiv.sum_comp (contrEquiv1 dot_S4096x160_S160x128_S4096x128_1_0_0_1_n_n 160 rfl rfl).symm]
  refine Finset.sum_congr rfl fun k _ => ?_
  have hk := contrEquiv1_symm_val dot_S4096x160_S160x128_S4096x128_1_0_0_1_n_n 160 rfl rfl k
  have el : dot_S4096x160_S160x128_S4096x128_1_0_0_1_n_n.lhsIdx (ix2 p j) ((contrEquiv1 dot_S4096x160_S160x128_S4096x128_1_0_0_1_n_n 160 rfl rfl).symm k) = ix2 p k :=
    funext fun ax => Fin.ext (by
      match ax with
      | ⟨0, _⟩ =>
        show (dot_S4096x160_S160x128_S4096x128_1_0_0_1_n_n.lhsIdx (ix2 p j) _ 0).val = p.val
        unfold DotDims.lhsIdx
        rw [dif_neg (show ¬(0 : Fin S4096x160.rank) ∈ dot_S4096x160_S160x128_S4096x128_1_0_0_1_n_n.lhsBatch by decide),
          dif_pos (show (0 : Fin S4096x160.rank) ∈ dot_S4096x160_S160x128_S4096x128_1_0_0_1_n_n.lhsNonContracting by decide)]
        rfl
      | ⟨1, _⟩ => exact (dot_S4096x160_S160x128_S4096x128_1_0_0_1_n_n.lhsIdx_val_of_single rfl _ _).trans hk)
  have er : dot_S4096x160_S160x128_S4096x128_1_0_0_1_n_n.rhsIdx (ix2 p j) ((contrEquiv1 dot_S4096x160_S160x128_S4096x128_1_0_0_1_n_n 160 rfl rfl).symm k) = ix2 k j :=
    funext fun ax => Fin.ext (by
      match ax with
      | ⟨0, _⟩ => exact (dot_S4096x160_S160x128_S4096x128_1_0_0_1_n_n.rhsIdx_val_of_single rfl _ _).trans hk
      | ⟨1, _⟩ =>
        show (dot_S4096x160_S160x128_S4096x128_1_0_0_1_n_n.rhsIdx (ix2 p j) _ 1).val = j.val
        unfold DotDims.rhsIdx
        rw [dif_neg (show ¬(1 : Fin S160x128.rank) ∈ dot_S4096x160_S160x128_S4096x128_1_0_0_1_n_n.rhsBatch by decide),
          dif_pos (show (1 : Fin S160x128.rank) ∈ dot_S4096x160_S160x128_S4096x128_1_0_0_1_n_n.rhsNonContracting by decide)]
        rfl)
  rw [el, er]

/-- The sum along the second axis of an `[a, b]` array from the zero word, at row `p`: the sum of that row's `b` entries.
    (The accumulator's evidence is stated as the equation between the two zero words that the body's text carries.) -/
theorem row_sum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ l : Fin b, src (ix2 p l) :=
  lane_sum_apply src 0x00000000#32 h hφ hacc p

/-- The stored value at `(p, q)` is the specification's row function of row `p` of the loaded block. -/
theorem stored_apply (v0 : Vec Ideal S4096x94 .f32) (v2 : Vec Ideal S94x160 .f32) (v6 v12 v14 : Vec Ideal S1x160 .f32)
    (v41 : Vec Ideal S160x128 .f32) (v44 v48 v50 : Vec Ideal S1x128 .f32) (p : Fin 4096) (q : Fin 128) :
    k0_pay1 (F := Ideal) (k0_pay2 (F := Ideal) v0 v2 v6 v12 v14) v41 v44 v48 v50 (ix2 p q)
      = rowOut (preAct (fun k => v0 (ix2 p k)) (fun k j => v2 (ix2 k j)) (fun j => v6 (ix2 (0 : Fin 1) j)))
          (fun j => v12 (ix2 (0 : Fin 1) j)) (fun j => v14 (ix2 (0 : Fin 1) j)) (fun j c => v41 (ix2 j c))
          (fun c => v44 (ix2 (0 : Fin 1) c)) (fun c => v48 (ix2 (0 : Fin 1) c)) (fun c => v50 (ix2 (0 : Fin 1) c)) q := by
  unfold k0_pay1 k0_pay2
  repeat (first
    | rw [row_sum_apply]
    | simp only [maximumf_apply, addf_apply, mulf_apply, subf_apply, divf_apply, broadcast_apply, truncf_apply, rsqrt_apply,
        shapeCast_self, shapeCast_a_a1_apply, broadcastTo_a1_ab_apply, broadcastTo_1b_ab_apply,
        first_product_apply, second_product_apply, Ideal.ofBits_def])
  simp only [rowOut, preAct, layerNorm, mean, zeroW, n160W, n128W, epsW]

end Cert.KernelIdeal.Payload

end
-- ==== Proof.KernelValue.lean ====
import proofs.«147416_j72249939853815_2_alg».proof.Proof.IdealFrame
import proofs.«147416_j72249939853815_2_alg».proof.Proof.Payload
import proofs.«147416_j72249939853815_2_alg».proof.Proof.Spec
import Idealize.ShloMosaic.Lib.Pipeline.Value
import Idealize.ShloMosaic.Lib.ValueIdx

/-!
# From the blocks to the whole result array

The region writes the result 4096 rows at a time: point `t` of the 128 writes back rows `4096 t … 4096 t + 4095`.
The data window moves with it (the same rows of the data array), and every other window is a whole array at every
point. So the value stored at row `p`, column `q` of block `t` is the row function of row `4096 t + p` of the data
array at `q`; the 128 blocks cover the 524288 rows; and the result array ends as one function (`entryFn`) of the
arrays the region finds, with every argument array unchanged.
-/

set_option maxRecDepth 16384

noncomputable section

namespace Cert.KernelIdeal.KValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The result as one function of the arrays the region finds -/

/-- Row `i 0` of the data array through the row function, with the weight, bias, scale and shift arrays the
    region finds, read at column `i 1`. -/
def entryFn (c : Dev nD) : S524288x128.Idx → EReal := fun i =>
  rowOut (preAct (fun k => (V m c main_arg0 : S524288x94.Idx → EReal) (ix2 (i 0) k))
      (fun k j => (V m c main_v28 : S94x160.Idx → EReal) (ix2 k j))
      (fun j => (V m c main_v30 : S1x160.Idx → EReal) (ix2 (0 : Fin 1) j)))
    (fun j => (V m c main_v31 : S1x160.Idx → EReal) (ix2 (0 : Fin 1) j))
    (fun j => (V m c main_v32 : S1x160.Idx → EReal) (ix2 (0 : Fin 1) j))
    (fun j q => (V m c main_arg17 : S160x128.Idx → EReal) (ix2 j q))
    (fun q => (V m c main_v33 : S1x128.Idx → EReal) (ix2 (0 : Fin 1) q))
    (fun q => (V m c main_v34 : S1x128.Idx → EReal) (ix2 (0 : Fin 1) q))
    (fun q => (V m c main_v35 : S1x128.Idx → EReal) (ix2 (0 : Fin 1) q)) (i 1)

theorem zero_offsets : (![0, 0] : Fin 2 → Nat) = fun _ => 0 := funext fun a => by fin_cases a <;> rfl

/-- There are 128 grid points. -/
theorem point_lt (t : Fin cfg0.N) : t.val < 128 := Nat.lt_of_lt_of_eq t.isLt N_0

/-- The block indices, decided over the grid: the data window and the result window take block `t` of the rows at
    point `t` and the one block of columns; every other window is its whole array at every point. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-! ## Each input block, read in the array -/

/-- Row `p` of the data block at point `t` is row `4096 t + p` of the data array. -/
theorem data_block_apply (c : Dev nD) (t : Fin cfg0.N) (p : Fin 4096) (k : Fin 94) (r : Fin 524288)
    (hr : r.val = 4096 * t.val + p.val) :
    (iblk m c 0 t : Vec Ideal S4096x94 .f32) (ix2 p k) = (V m c main_arg0 : S524288x94.Idx → EReal) (ix2 r k) := by
  obtain ⟨e0_0, e0_1, e1_0, e1_1, e2_0, e2_1, e3_0, e3_1, e4_0, e4_1, e5_0, e5_1, e6_0, e6_1, e7_0, e7_1, e8_0, e8_1, e9_0, e9_1⟩ := block_indices t
  unfold iblk
  rw [View.read_apply]
  show V m c main_arg0 _ = V m c main_arg0 _
  congr 1
  funext a
  apply Fin.ext
  match a with
  | ⟨0, _⟩ => show win0_0.index t (0 : Fin 2) * 4096 + 1 * p.val = r.val; rw [e0_0, hr]; omega
  | ⟨1, _⟩ => show win0_0.index t (1 : Fin 2) * 94 + 1 * k.val = k.val; rw [e0_1]; omega

/-! Every other input window is its whole array at every point. -/
theorem resident1_eq (c : Dev nD) (t : Fin cfg0.N) :
    (iblk m c 1 t : Vec Ideal S94x160 .f32) = (V m c main_v28 : S94x160.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v28 _ = V m c main_v28 x
  congr 1
  funext a
  apply Fin.ext
  match a with
  | ⟨0, _⟩ => show win0_1.index t (0 : Fin 2) * 94 + 1 * (x 0).val = (x 0).val; rw [e1_0]; omega
  | ⟨1, _⟩ => show win0_1.index t (1 : Fin 2) * 160 + 1 * (x 1).val = (x 1).val; rw [e1_1]; omega
theorem resident2_eq (c : Dev nD) (t : Fin cfg0.N) :
    (iblk m c 2 t : Vec Ideal S1x160 .f32) = (V m c main_v30 : S1x160.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v30 _ = V m c main_v30 x
  congr 1
  funext a
  apply Fin.ext
  match a with
  | ⟨0, _⟩ => show win0_2.index t (0 : Fin 2) * 1 + 1 * (x 0).val = (x 0).val; rw [e2_0]; omega
  | ⟨1, _⟩ => show win0_2.index t (1 : Fin 2) * 160 + 1 * (x 1).val = (x 1).val; rw [e2_1]; omega
theorem resident3_eq (c : Dev nD) (t : Fin cfg0.N) :
    (iblk m c 3 t : Vec Ideal S1x160 .f32) = (V m c main_v31 : S1x160.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v31 _ = V m c main_v31 x
  congr 1
  funext a
  apply Fin.ext
  match a with
  | ⟨0, _⟩ => show win0_3.index t (0 : Fin 2) * 1 + 1 * (x 0).val = (x 0).val; rw [e3_0]; omega
  | ⟨1, _⟩ => show win0_3.index t (1 : Fin 2) * 160 + 1 * (x 1).val = (x 1).val; rw [e3_1]; omega
theorem resident4_eq (c : Dev nD) (t : Fin cfg0.N) :
    (iblk m c 4 t : Vec Ideal S1x160 .f32) = (V m c main_v32 : S1x160.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v32 _ = V m c main_v32 x
  congr 1
  funext a
  apply Fin.ext
  match a with
  | ⟨0, _⟩ => show win0_4.index t (0 : Fin 2) * 1 + 1 * (x 0).val = (x 0).val; rw [e4_0]; omega
  | ⟨1, _⟩ => show win0_4.index t (1 : Fin 2) * 160 + 1 * (x 1).val = (x 1).val; rw [e4_1]; omega
theorem resident5_eq (c : Dev nD) (t : Fin cfg0.N) :
    (iblk m c 5 t : Vec Ideal S160x128 .f32) = (V m c main_arg17 : S160x128.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_arg17 _ = V m c main_arg17 x
  congr 1
  funext a
  apply Fin.ext
  match a with
  | ⟨0, _⟩ => show win0_5.index t (0 : Fin 2) * 160 + 1 * (x 0).val = (x 0).val; rw [e5_0]; omega
  | ⟨1, _⟩ => show win0_5.index t (1 : Fin 2) * 128 + 1 * (x 1).val = (x 1).val; rw [e5_1]; omega
theorem resident6_eq (c : Dev nD) (t : Fin cfg0.N) :
    (iblk m c 6 t : Vec Ideal S1x128 .f32) = (V m c main_v33 : S1x128.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v33 _ = V m c main_v33 x
  congr 1
  funext a
  apply Fin.ext
  match a with
  | ⟨0, _⟩ => show win0_6.index t (0 : Fin 2) * 1 + 1 * (x 0).val = (x 0).val; rw [e6_0]; omega
  | ⟨1, _⟩ => show win0_6.index t (1 : Fin 2) * 128 + 1 * (x 1).val = (x 1).val; rw [e6_1]; omega
theorem resident7_eq (c : Dev nD) (t : Fin cfg0.N) :
    (iblk m c 7 t : Vec Ideal S1x128 .f32) = (V m c main_v34 : S1x128.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v34 _ = V m c main_v34 x
  congr 1
  funext a
  apply Fin.ext
  match a with
  | ⟨0, _⟩ => show win0_7.index t (0 : Fin 2) * 1 + 1 * (x 0).val = (x 0).val; rw [e7_0]; omega
  | ⟨1, _⟩ => show win0_7.index t (1 : Fin 2) * 128 + 1 * (x 1).val = (x 1).val; rw [e7_1]; omega
theorem resident8_eq (c : Dev nD) (t : Fin cfg0.N) :
    (iblk m c 8 t : Vec Ideal S1x128 .f32) = (V m c main_v35 : S1x128.Idx → EReal) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext x
  unfold iblk
  rw [View.read_apply]
  show V m c main_v35 _ = V m c main_v35 x
  congr 1
  funext a
  apply Fin.ext
  match a with
  | ⟨0, _⟩ => show win0_8.index t (0 : Fin 2) * 1 + 1 * (x 0).val = (x 0).val; rw [e8_0]; omega
  | ⟨1, _⟩ => show win0_8.index t (1 : Fin 2) * 128 + 1 * (x 1).val = (x 1).val; rw [e8_1]; omega

/-! ## What each point writes back -/

/-- The stored value over variables: when row `p` of the loaded data block is row `r` of a data array and the
    other loaded blocks are given arrays, the value at `(p, q)` is the row function of that row at `q`. -/
theorem stored_of_arrays (A0 : S524288x94.Idx → EReal) (A1 : S94x160.Idx → EReal) (A2 A3 A4 : S1x160.Idx → EReal)
    (A5 : S160x128.Idx → EReal) (A6 A7 A8 : S1x128.Idx → EReal)
    (x0 : Vec Ideal S4096x94 .f32) (x1 : Vec Ideal S94x160 .f32) (x2 x3 x4 : Vec Ideal S1x160 .f32)
    (x5 : Vec Ideal S160x128 .f32) (x6 x7 x8 : Vec Ideal S1x128 .f32) (p : Fin 4096) (q : Fin 128) (r : Fin 524288)
    (h0 : ∀ k : Fin 94, x0 (ix2 p k) = A0 (ix2 r k)) (h1 : x1 = A1) (h2 : x2 = A2) (h3 : x3 = A3) (h4 : x4 = A4)
    (h5 : x5 = A5) (h6 : x6 = A6) (h7 : x7 = A7) (h8 : x8 = A8) :
    k0_pay1 (F := Ideal) (k0_pay2 (F := Ideal) x0 x1 x2 x3 x4) x5 x6 x7 x8 (ix2 p q)
      = rowOut (preAct (fun k => A0 (ix2 r k)) (fun k j => A1 (ix2 k j)) (fun j => A2 (ix2 (0 : Fin 1) j)))
          (fun j => A3 (ix2 (0 : Fin 1) j)) (fun j => A4 (ix2 (0 : Fin 1) j)) (fun j c => A5 (ix2 j c))
          (fun c => A6 (ix2 (0 : Fin 1) c)) (fun c => A7 (ix2 (0 : Fin 1) c)) (fun c => A8 (ix2 (0 : Fin 1) c)) q := by
  subst h1 h2 h3 h4 h5 h6 h7 h8
  rw [Payload.stored_apply, show (fun k => x0 (ix2 p k)) = fun k => A0 (ix2 r k) from funext h0]

/-- An element of the result block at point `t` sits in the result array at row `4096 t + p`, column `q`. -/
theorem result_block_emb (t : Fin cfg0.N) (p : Fin 4096) (q : Fin 128) (r : Fin 524288) (hr : r.val = 4096 * t.val + p.val) :
    ((cfg0.win 9).blk t).view.emb (ix2 p q) = (ix2 r q : S524288x128.Idx) := by
  obtain ⟨e0_0, e0_1, e1_0, e1_1, e2_0, e2_1, e3_0, e3_1, e4_0, e4_1, e5_0, e5_1, e6_0, e6_1, e7_0, e7_1, e8_0, e8_1, e9_0, e9_1⟩ := block_indices t
  funext a
  apply Fin.ext
  match a with
  | ⟨0, _⟩ => show win0_9.index t (0 : Fin 2) * 4096 + 1 * p.val = r.val; rw [e9_0, hr]; omega
  | ⟨1, _⟩ => show win0_9.index t (1 : Fin 2) * 128 + 1 * q.val = q.val; rw [e9_1]; omega

/-- What point `t` writes back is block `t` of `entryFn`: rows `4096 t … 4096 t + 4095`, all 128 columns. -/
theorem flushed_eq (c : Dev nD) (t : Fin cfg0.N) :
    (dats m 0 c).flushed 9 t = ((cfg0.win 9).blk t).view.read (Elt Ideal) (entryFn m c) := by
  show (cfg0.win 9).cut (grid0.coords t) ((dats m 0 c).after 9 t) = _
  rw [after_out]
  unfold outBlock
  rw [View.canon_unit_zero zero_offsets]
  simp only [View.ld_unit_zero (S := S4096x94) zero_offsets, View.ld_unit_zero (S := S94x160) zero_offsets,
    View.ld_unit_zero (S := S1x160) zero_offsets, View.ld_unit_zero (S := S160x128) zero_offsets,
    View.ld_unit_zero (S := S1x128) zero_offsets]
  refine funext fun (y : S4096x128.Idx) => ?_
  obtain ⟨p, q, rfl⟩ : ∃ (p : Fin 4096) (q : Fin 128), y = ix2 p q := ⟨y 0, y 1, eq_ix2 y⟩
  have hlt := point_lt t
  have hp := p.isLt
  let r : Fin 524288 := ⟨4096 * t.val + p.val, by omega⟩
  show k0_pay1 (F := Ideal) (k0_pay2 (F := Ideal) (iblk m c 0 t) (iblk m c 1 t) (iblk m c 2 t) (iblk m c 3 t) (iblk m c 4 t))
      (iblk m c 5 t) (iblk m c 6 t) (iblk m c 7 t) (iblk m c 8 t) (ix2 p q)
    = entryFn m c (((cfg0.win 9).blk t).view.emb (ix2 p q))
  rw [result_block_emb t p q r rfl]
  exact stored_of_arrays _ _ _ _ _ _ _ _ _ _ _ _ _ _ _ _ _ _ p q r
    (fun k => data_block_apply m c t p k r rfl) (resident1_eq m c t) (resident2_eq m c t) (resident3_eq m c t)
    (resident4_eq m c t) (resident5_eq m c t) (resident6_eq m c t) (resident7_eq m c t) (resident8_eq m c t)

/-! ## The blocks cover the result array -/

/-- An index of the result array is in point `t`'s block iff each coordinate is in the block's range on its axis. -/
theorem mem_result_block (t : Fin cfg0.N) (i : S524288x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v36).slice (win0_9.rect t)).set ↔ _
  rw [View.set_slice_whole, Rect.mem_set_unit]
  exact Iff.rfl

/-- Row `r` of the result array is in the block of point `r / 4096`, which writes back. -/
theorem rows_covered (i : S524288x128.Idx) :
    ∃ t : Fin cfg0.N, (cfg0.win 9).flush t = true ∧ i ∈ ((cfg0.win 9).blk t).view.set := by
  have hi0 : (i 0).val < 524288 := (i 0).isLt
  have hi1 : (i 1).val < 128 := (i 1).isLt
  have hN : cfg0.N = 128 := N_0
  obtain ⟨t, ht⟩ : ∃ t : Fin cfg0.N, t.val = (i 0).val / 4096 := ⟨⟨(i 0).val / 4096, by rw [hN]; omega⟩, rfl⟩
  refine ⟨t, flush0_9 t, ?_⟩
  rw [mem_result_block]
  obtain ⟨e0_0, e0_1, e1_0, e1_1, e2_0, e2_1, e3_0, e3_1, e4_0, e4_1, e5_0, e5_1, e6_0, e6_1, e7_0, e7_1, e8_0, e8_1, e9_0, e9_1⟩ := block_indices t
  intro a
  match a with
  | ⟨0, _⟩ => show win0_9.index t (0 : Fin 2) * 4096 ≤ (i 0).val ∧ (i 0).val < win0_9.index t (0 : Fin 2) * 4096 + 4096; rw [e9_0, ht]; omega
  | ⟨1, _⟩ => show win0_9.index t (1 : Fin 2) * 128 ≤ (i 1).val ∧ (i 1).val < win0_9.index t (1 : Fin 2) * 128 + 128; rw [e9_1]; omega

/-- The result array after the run is `entryFn`: every block written back is its block, and the blocks cover. -/
theorem final (c : Dev nD) : (dats m 0 c).arrAt 9 cfg0.N = entryFn m c :=
  (dats m 0 c).arrAt_eq_of_cover 9 (entryFn m c) (fun t _ => flushed_eq m c t) rows_covered

/-! ## The run, read -/

/-- Every weakly fair execution terminates with the result array at `entryFn` and every argument array as launched. -/
theorem run : θ_run defs (onTc (τ := τ) (main (F := Ideal))) ⟨m, fun _ => 0, ρ⟩ (fun r => ∀ c : Dev nD,
      r.2.mem ((c.tc : Thread nD τ).loc main_v36) = entryFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 5).trans (((dats m 0 c).arrAt_in 5 rfl _).trans ((A_eq m c 5).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩)
    (run_main m ρ)

/-- info: 'Cert.KernelIdeal.KValue.run' depends on axioms: [propext, Classical.choice, Quot.sound] -/
#guard_msgs in #print axioms run

end Cert.KernelIdeal.KValue

end
-- ==== Proof.LibConcatCongr.lean ====
/-
  A congruence rule for a two-piece `concatenate`.

  `concatenate t a xs h` takes its pieces as a list of pairs (a shape, an array of that shape), and the proof `h`
  that the pieces' shapes join to `t` along axis `a` mentions that list. For two pieces: equal pieces give equal
  joins. Stated as a congruence rule, so that an equation between arrays can be used inside either piece.
-/
import Idealize.ShloMosaic.PureOps

namespace Cert.Lib

open Idealize.ShloMosaic

/-- Two pieces joined along an axis: equal pieces give equal joins. -/
theorem concatenate_pair_congr {α : Type} (t : Shape) (a : Fin t.rank) (s₁ s₂ : Shape)
    (x x' : s₁.Idx → α) (y y' : s₂.Idx → α) (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Lib
-- ==== Proof.LibScatterSet.lean ====
/-
  A scatter that writes one rectangular window, read at an index.

  A scatter whose body returns the update is a fold of point updates over the update's indices: each index that
  lands inside the operand overwrites one element. Read at a single element, such a fold gives the value carried by
  the indices that land there when there is one, and the original element when there is none. For a rank-2 operand,
  one index vector of two components (the window's corner) and the update's two axes as the window, update index
  `(a, b)` lands at the corner plus `(a, b)`; so the result is the update inside the window and the operand outside.
-/
import Idealize.ShloMosaic.PureOps
import Idealize.ShloMosaic.Lib.ValueIdx

namespace Cert.Lib

open Idealize.ShloMosaic Idealize.ShloMosaic.ValueIdx

/-! ## A fold of point updates, read at one point -/

section Fold
variable {ι κ β : Type} [DecidableEq κ]

/-- One step of a scatter: element `n` of the schedule, when it lands somewhere (`g n = some i`), overwrites the
    array at `i` with its value; when it lands nowhere the array is unchanged. -/
def setStep (g : ι → Option κ) (val : ι → β) (r : κ → β) (n : ι) : κ → β :=
  match g n with
  | some i => fun i' => if i' = i then val n else r i'
  | none => r

theorem setStep_apply_of_eq (g : ι → Option κ) (val : ι → β) (r : κ → β) (n : ι) (i' : κ) (h : g n = some i') :
    setStep g val r n i' = val n := by
  unfold setStep; rw [h]; exact if_pos rfl

theorem setStep_apply_of_ne (g : ι → Option κ) (val : ι → β) (r : κ → β) (n : ι) (i' : κ) (h : g n ≠ some i') :
    setStep g val r n i' = r i' := by
  unfold setStep
  cases hg : g n with
  | none => rfl
  | some i => exact if_neg fun e => h (by rw [hg, e])

/-- A point no element of the schedule lands on keeps its value. -/
theorem foldl_setStep_apply_of_forall_ne (g : ι → Option κ) (val : ι → β) (i' : κ) :
    ∀ (l : List ι) (x : κ → β), (∀ n ∈ l, g n ≠ some i') → (l.foldl (setStep g val) x) i' = x i'
  | [], _, _ => rfl
  | n :: l, x, h => by
    rw [List.foldl_cons, foldl_setStep_apply_of_forall_ne g val i' l _ fun n' hn' => h n' (List.mem_cons_of_mem _ hn')]
    exact setStep_apply_of_ne g val x n i' (h n List.mem_cons_self)

/-- A point some element of the schedule lands on ends at the value `v` that every such element carries. -/
theorem foldl_setStep_apply_of_exists (g : ι → Option κ) (val : ι → β) (i' : κ) (v : β) :
    ∀ (l : List ι) (x : κ → β), (∀ n ∈ l, g n = some i' → val n = v) → (∃ n ∈ l, g n = some i') →
      (l.foldl (setStep g val) x) i' = v
  | [], _, _, ⟨_, hn, _⟩ => absurd hn List.not_mem_nil
  | n :: l, x, hv, ⟨n₀, hn₀, hg₀⟩ => by
    rw [List.foldl_cons]
    by_cases hl : ∃ n' ∈ l, g n' = some i'
    · exact foldl_setStep_apply_of_exists g val i' v l _ (fun n' hn' => hv n' (List.mem_cons_of_mem _ hn')) hl
    · have hl' : ∀ n' ∈ l, g n' ≠ some i' := fun n' hn' e => hl ⟨n', hn', e⟩
      rw [foldl_setStep_apply_of_forall_ne g val i' l _ hl']
      rcases List.mem_cons.1 hn₀ with rfl | hmem
      · rw [setStep_apply_of_eq g val x n₀ i' hg₀]; exact hv n₀ List.mem_cons_self hg₀
      · exact absurd hg₀ (hl' n₀ hmem)

end Fold

/-! ## A window written at a literal start -/

section Window
variable {α : Type} {H W h w : Nat}

/-- A scatter whose body returns the update is the fold of point updates over the update's indices in row-major
    order. -/
theorem scatter_eq_foldl_setStep {s si u : Shape} {wd : Nat} (d : ScatterDims s si u) (x : s.Idx → α) (idx : IVec si wd) (upd : u.Idx → α) :
    Host.scatter d (fun _ b => b) x idx upd
      = (List.finRange u.numel).foldl (setStep (fun n => d.resultIdx? (u.rowMajor.symm n) idx) (fun n => upd (u.rowMajor.symm n))) x := by
  unfold Host.scatter
  congr 1
  funext r n
  unfold setStep
  dsimp only
  generalize d.resultIdx? (u.rowMajor.symm n) idx = o
  cases o <;> rfl

/-- With both operand axes scattered from one index vector of two components, the window starts on axis 0 at the
    first component. -/
theorem start_zero (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (idx : IVec ⟨1, ![2]⟩ 32) (j : (⟨2, ![h, w]⟩ : Shape).Idx) :
    d.start j idx 0 = (idx (ix1 0)).toInt := by
  obtain ⟨uw, iw, sd, iv, wf⟩ := d
  dsimp only at hu hi hs hv
  subst hu hi hs hv
  unfold ScatterDims.start
  dsimp only
  rw [dif_pos List.mem_cons_self]
  congr 2
  funext b
  match b with
  | ⟨0, _⟩ =>
    apply Fin.ext
    unfold ScatterDims.siIdx
    rw [dif_pos rfl]
    rfl

/-- … and on axis 1 at the second component. -/
theorem start_one (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (idx : IVec ⟨1, ![2]⟩ 32) (j : (⟨2, ![h, w]⟩ : Shape).Idx) :
    d.start j idx 1 = (idx (ix1 1)).toInt := by
  obtain ⟨uw, iw, sd, iv, wf⟩ := d
  dsimp only at hu hi hs hv
  subst hu hi hs hv
  unfold ScatterDims.start
  dsimp only
  rw [dif_pos (List.mem_cons_of_mem _ List.mem_cons_self)]
  congr 2
  funext b
  match b with
  | ⟨0, _⟩ =>
    apply Fin.ext
    unfold ScatterDims.siIdx
    rw [dif_pos rfl]
    rfl

/-- With no inserted axis and the update's two axes as the window, the window coordinate on each operand axis is the
    update index's coordinate on that axis. -/
theorem window_zero (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (j : (⟨2, ![h, w]⟩ : Shape).Idx) :
    d.window j 0 = (j 0).val := by
  obtain ⟨uw, iw, sd, iv, wf⟩ := d
  dsimp only at hu hi hs hv
  subst hu hi hs hv
  unfold ScatterDims.window
  dsimp only
  rw [dif_pos (by exact List.mem_cons_self)]
  rfl

theorem window_one (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (j : (⟨2, ![h, w]⟩ : Shape).Idx) :
    d.window j 1 = (j 1).val := by
  obtain ⟨uw, iw, sd, iv, wf⟩ := d
  dsimp only at hu hi hs hv
  subst hu hi hs hv
  unfold ScatterDims.window
  dsimp only
  rw [dif_pos (by exact List.mem_cons_of_mem _ List.mem_cons_self)]
  rfl

/-- Where update index `j` lands: at the start plus `j`, which is inside the operand when the whole window is. -/
theorem resultIdx?_window (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (idx : IVec ⟨1, ![2]⟩ 32) (r c : Nat)
    (hr : (idx (ix1 0)).toInt = r) (hc : (idx (ix1 1)).toInt = c) (hH : r + h ≤ H) (hW : c + w ≤ W)
    (j : (⟨2, ![h, w]⟩ : Shape).Idx) :
    d.resultIdx? j idx
      = some (ix2 (⟨r + (j 0).val, by have := idx2_lt0 j; omega⟩ : Fin H) (⟨c + (j 1).val, by have := idx2_lt1 j; omega⟩ : Fin W)) := by
  have h0 := idx2_lt0 j
  have h1 := idx2_lt1 j
  have s0 : d.start j idx 0 + d.window j 0 = ((r + (j 0).val : Nat) : Int) := by
    rw [start_zero d hu hi hs hv, window_zero d hu hi hs hv, hr]; push_cast; rfl
  have s1 : d.start j idx 1 + d.window j 1 = ((c + (j 1).val : Nat) : Int) := by
    rw [start_one d hu hi hs hv, window_one d hu hi hs hv, hc]; push_cast; rfl
  have hall : ∀ a : Fin (⟨2, ![H, W]⟩ : Shape).rank, 0 ≤ d.start j idx a + d.window j a ∧
      d.start j idx a + d.window j a < (⟨2, ![H, W]⟩ : Shape).size a := by
    intro a
    match a with
    | ⟨0, _⟩ =>
      show 0 ≤ d.start j idx 0 + d.window j 0 ∧ d.start j idx 0 + d.window j 0 < ((H : Nat) : Int)
      rw [s0]; omega
    | ⟨1, _⟩ =>
      show 0 ≤ d.start j idx 1 + d.window j 1 ∧ d.start j idx 1 + d.window j 1 < ((W : Nat) : Int)
      rw [s1]; omega
  unfold ScatterDims.resultIdx?
  rw [dif_pos hall]
  congr 1
  funext a
  match a with
  | ⟨0, _⟩ =>
    apply Fin.ext
    show (d.start j idx 0 + d.window j 0).toNat = r + (j 0).val
    rw [s0]; exact Int.toNat_natCast _
  | ⟨1, _⟩ =>
    apply Fin.ext
    show (d.start j idx 1 + d.window j 1).toNat = c + (j 1).val
    rw [s1]; exact Int.toNat_natCast _

/-- **A window written at a literal corner, read at an index.** An `h × w` update scattered whole into an
    `H × W` operand with its corner at row `r`, column `c` (the window inside the operand) holds, at row `k` and
    column `j`, the update at `(k - r, j - c)` when `(k, j)` is in the window, and the operand's element otherwise. -/
theorem scatter_window_apply (d : ScatterDims ⟨2, ![H, W]⟩ ⟨1, ![2]⟩ ⟨2, ![h, w]⟩)
    (hu : d.updateWindowDims = [0, 1]) (hi : d.insertedWindowDims = []) (hs : d.scatterDimsToOperandDims = [0, 1])
    (hv : d.indexVectorDim = 0) (x : (⟨2, ![H, W]⟩ : Shape).Idx → α) (idx : IVec ⟨1, ![2]⟩ 32)
    (upd : (⟨2, ![h, w]⟩ : Shape).Idx → α) (r c : Nat)
    (hr : (idx (ix1 0)).toInt = r) (hc : (idx (ix1 1)).toInt = c) (hH : r + h ≤ H) (hW : c + w ≤ W)
    (k : Fin H) (j : Fin W) :
    Host.scatter d (fun _ b => b) x idx upd (ix2 k j)
      = if hin : (r ≤ k.val ∧ k.val < r + h) ∧ (c ≤ j.val ∧ j.val < c + w) then
          upd (ix2 (⟨k.val - r, by omega⟩ : Fin h) (⟨j.val - c, by omega⟩ : Fin w))
        else x (ix2 k j) := by
  rw [scatter_eq_foldl_setStep]
  have hg : ∀ n : Fin (⟨2, ![h, w]⟩ : Shape).numel,
      d.resultIdx? ((⟨2, ![h, w]⟩ : Shape).rowMajor.symm n) idx = some (ix2 k j) →
        k.val = r + (((⟨2, ![h, w]⟩ : Shape).rowMajor.symm n) 0).val ∧ j.val = c + (((⟨2, ![h, w]⟩ : Shape).rowMajor.symm n) 1).val := by
    intro n hn
    rw [resultIdx?_window d hu hi hs hv idx r c hr hc hH hW] at hn
    have e := Option.some.inj hn
    exact ⟨(congrArg (fun i => (i 0).val) e).symm, (congrArg (fun i => (i 1).val) e).symm⟩
  by_cases hin : (r ≤ k.val ∧ k.val < r + h) ∧ (c ≤ j.val ∧ j.val < c + w)
  · rw [dif_pos hin]
    refine foldl_setStep_apply_of_exists _ _ (ix2 k j) _ _ x ?_ ?_
    · intro n _ hn
      obtain ⟨e0, e1⟩ := hg n hn
      show upd _ = upd _
      congr 1
      rw [eq_ix2 ((⟨2, ![h, w]⟩ : Shape).rowMajor.symm n)]
      congr 1 <;> apply Fin.ext
      · show _ = k.val - r; omega
      · show _ = j.val - c; omega
    · refine ⟨(⟨2, ![h, w]⟩ : Shape).rowMajor (ix2 (⟨k.val - r, by omega⟩ : Fin h) (⟨j.val - c, by omega⟩ : Fin w)),
        List.mem_finRange _, ?_⟩
      show d.resultIdx? ((⟨2, ![h, w]⟩ : Shape).rowMajor.symm _) idx = _
      rw [Equiv.symm_apply_apply, resultIdx?_window d hu hi hs hv idx r c hr hc hH hW]
      congr 2 <;> apply Fin.ext
      · show r + (k.val - r) = k.val; omega
      · show c + (j.val - c) = j.val; omega
  · rw [dif_neg hin]
    refine foldl_setStep_apply_of_forall_ne _ _ (ix2 k j) _ x ?_
    intro n _ hn
    obtain ⟨e0, e1⟩ := hg n hn
    have h0 := idx2_lt0 ((⟨2, ![h, w]⟩ : Shape).rowMajor.symm n)
    have h1 := idx2_lt1 ((⟨2, ![h, w]⟩ : Shape).rowMajor.symm n)
    exact hin ⟨⟨by omega, by omega⟩, ⟨by omega, by omega⟩⟩

end Window

end Cert.Lib
-- ==== Proof.HostSide.lean ====
/-
  What the arrays the wrapper assembles before the launch hold, read at an index.

  The wrapper's host operations build three kinds of array from the arguments: a 94 × 160 matrix, begun as zeros, into
  which seven rectangular blocks are written one after the other, each at its own corner; a vector of length 160, the
  seven bias vectors laid end to end, recast as one row; and five further vectors recast as one row each. Each is read
  here at an arbitrary index as a function of the argument arrays: the matrix is block diagonal
  (`Cert.Spec.blockDiag`), the joined row is `Cert.Spec.joined`, and a recast row is the vector it came from.
-/
import proofs.«147416_j72249939853815_2_alg».proof.Proof.Gen.KernelIdeal.Launch
import proofs.«147416_j72249939853815_2_alg».proof.Proof.BlockDiag
import proofs.«147416_j72249939853815_2_alg».proof.Proof.LibConcatCongr
import proofs.«147416_j72249939853815_2_alg».proof.Proof.LibScatterSet
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (c : Dev nD)

abbrev entry (b : Ref sig .tc) : Buf (Elt F) ((c : Thread nD τ).loc b) :=
  StableHlo.after (Gen.hostOps0 (F := F)) (fun b => m (c, b)) b

/-! ## Reshapes of a vector to a one-row matrix -/

/-- A vector recast as a one-row matrix, read at row `u` (there is only one) and column `j`, is the vector at `j`:
    both indices have row-major position `j`. -/
theorem shapeCast_row_apply {α : Type} {n : Nat} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) := by
  obtain rfl : u = 0 := Fin.eq_zero u
  exact shapeCast_apply x h (ix2 (0 : Fin 1) j) (ix1 j) (by
    rw [Shape.rowMajor_val_two, Shape.rowMajor_val_one]; show j.val = 0 * n + j.val; omega)

theorem v31_term : (entry m c main_v31 : S1x160.Idx → Elt F .f32)
    = shapeCast S1x160 ((m ((c : Thread nD τ).loc main_arg15)) : S160.Idx → Elt F .f32) shapeCasts_S160_S1x160 := by
  dsimp only [entry, Gen.hostOps0]; after_results; rfl

theorem v32_term : (entry m c main_v32 : S1x160.Idx → Elt F .f32)
    = shapeCast S1x160 ((m ((c : Thread nD τ).loc main_arg16)) : S160.Idx → Elt F .f32) shapeCasts_S160_S1x160 := by
  dsimp only [entry, Gen.hostOps0]; after_results; rfl

theorem v33_term : (entry m c main_v33 : S1x128.Idx → Elt F .f32)
    = shapeCast S1x128 ((m ((c : Thread nD τ).loc main_arg18)) : S128.Idx → Elt F .f32) shapeCasts_S128_S1x128 := by
  dsimp only [entry, Gen.hostOps0]; after_results; rfl

theorem v34_term : (entry m c main_v34 : S1x128.Idx → Elt F .f32)
    = shapeCast S1x128 ((m ((c : Thread nD τ).loc main_arg19)) : S128.Idx → Elt F .f32) shapeCasts_S128_S1x128 := by
  dsimp only [entry, Gen.hostOps0]; after_results; rfl

theorem v35_term : (entry m c main_v35 : S1x128.Idx → Elt F .f32)
    = shapeCast S1x128 ((m ((c : Thread nD τ).loc main_arg20)) : S128.Idx → Elt F .f32) shapeCasts_S128_S1x128 := by
  dsimp only [entry, Gen.hostOps0]; after_results; rfl

theorem row_v31_apply (u : Fin 1) (j : Fin 160) :
    (entry m c main_v31 : S1x160.Idx → Elt F .f32) (ix2 u j) = (m ((c : Thread nD τ).loc main_arg15)) (ix1 j) := by
  rw [v31_term]; exact shapeCast_row_apply _ _ u j

theorem row_v32_apply (u : Fin 1) (j : Fin 160) :
    (entry m c main_v32 : S1x160.Idx → Elt F .f32) (ix2 u j) = (m ((c : Thread nD τ).loc main_arg16)) (ix1 j) := by
  rw [v32_term]; exact shapeCast_row_apply _ _ u j

theorem row_v33_apply (u : Fin 1) (j : Fin 128) :
    (entry m c main_v33 : S1x128.Idx → Elt F .f32) (ix2 u j) = (m ((c : Thread nD τ).loc main_arg18)) (ix1 j) := by
  rw [v33_term]; exact shapeCast_row_apply _ _ u j

theorem row_v34_apply (u : Fin 1) (j : Fin 128) :
    (entry m c main_v34 : S1x128.Idx → Elt F .f32) (ix2 u j) = (m ((c : Thread nD τ).loc main_arg19)) (ix1 j) := by
  rw [v34_term]; exact shapeCast_row_apply _ _ u j

theorem row_v35_apply (u : Fin 1) (j : Fin 128) :
    (entry m c main_v35 : S1x128.Idx → Elt F .f32) (ix2 u j) = (m ((c : Thread nD τ).loc main_arg20)) (ix1 j) := by
  rw [v35_term]; exact shapeCast_row_apply _ _ u j

/-! ## The seven vectors joined -/

theorem v30_term : (entry m c main_v30 : S1x160.Idx → Elt F .f32)
    = shapeCast S1x160 (concatenate S160 0 [⟨S32, (m ((c : Thread nD τ).loc main_arg2))⟩, ⟨S16, (m ((c : Thread nD τ).loc main_arg4))⟩, ⟨S16, (m ((c : Thread nD τ).loc main_arg6))⟩, ⟨S16, (m ((c : Thread nD τ).loc main_arg8))⟩, ⟨S32, (m ((c : Thread nD τ).loc main_arg10))⟩, ⟨S16, (m ((c : Thread nD τ).loc main_arg12))⟩, ⟨S32, (m ((c : Thread nD τ).loc main_arg14))⟩]
        concatenates_S32_S16_S16_S16_S32_S16_S32_S160_d0) shapeCasts_S160_S1x160 := by
  dsimp only [entry, Gen.hostOps0]; after_results; rfl

/-- The joined vector as the wrapper computes it, read at column `j`: the piece whose span holds `j`, at `j` less
    the lengths of the pieces before it. -/
theorem bias_apply (u : Fin 1) (j : Fin 160) :
    (entry m c main_v30 : S1x160.Idx → Elt F .f32) (ix2 u j)
      = Cert.Spec.joined (fun a => (m ((c : Thread nD τ).loc main_arg2)) (ix1 a))
        (fun a => (m ((c : Thread nD τ).loc main_arg4)) (ix1 a))
        (fun a => (m ((c : Thread nD τ).loc main_arg6)) (ix1 a))
        (fun a => (m ((c : Thread nD τ).loc main_arg8)) (ix1 a))
        (fun a => (m ((c : Thread nD τ).loc main_arg10)) (ix1 a))
        (fun a => (m ((c : Thread nD τ).loc main_arg12)) (ix1 a))
        (fun a => (m ((c : Thread nD τ).loc main_arg14)) (ix1 a)) j := by
  rw [v30_term]
  refine (shapeCast_row_apply _ _ u j).trans ?_
  unfold Cert.Spec.joined
  have hj : j.val < 160 := j.isLt
  by_cases h0 : j.val < 32
  · rw [dif_pos h0]
    exact concatenate_apply_piece (0 : Fin S160.rank) _ _ (ix1 j) 0 (by show 0 < 7; omega) S32 _ rfl rfl 0 rfl
      (ix1 ⟨j.val - 0, by omega⟩) (fun b hb => match b, hb with | ⟨0, _⟩, hb => (hb rfl).elim)
      (by show 0 + (j.val - 0) = j.val; omega)
  · rw [dif_neg h0]
    by_cases h1 : j.val < 48
    · rw [dif_pos h1]
      exact concatenate_apply_piece (0 : Fin S160.rank) _ _ (ix1 j) 1 (by show 1 < 7; omega) S16 _ rfl rfl 32 rfl
        (ix1 ⟨j.val - 32, by omega⟩) (fun b hb => match b, hb with | ⟨0, _⟩, hb => (hb rfl).elim)
        (by show 32 + (j.val - 32) = j.val; omega)
    · rw [dif_neg h1]
      by_cases h2 : j.val < 64
      · rw [dif_pos h2]
        exact concatenate_apply_piece (0 : Fin S160.rank) _ _ (ix1 j) 2 (by show 2 < 7; omega) S16 _ rfl rfl 48 rfl
          (ix1 ⟨j.val - 48, by omega⟩) (fun b hb => match b, hb with | ⟨0, _⟩, hb => (hb rfl).elim)
          (by show 48 + (j.val - 48) = j.val; omega)
      · rw [dif_neg h2]
        by_cases h3 : j.val < 80
        · rw [dif_pos h3]
          exact concatenate_apply_piece (0 : Fin S160.rank) _ _ (ix1 j) 3 (by show 3 < 7; omega) S16 _ rfl rfl 64 rfl
            (ix1 ⟨j.val - 64, by omega⟩) (fun b hb => match b, hb with | ⟨0, _⟩, hb => (hb rfl).elim)
            (by show 64 + (j.val - 64) = j.val; omega)
        · rw [dif_neg h3]
          by_cases h4 : j.val < 112
          · rw [dif_pos h4]
            exact concatenate_apply_piece (0 : Fin S160.rank) _ _ (ix1 j) 4 (by show 4 < 7; omega) S32 _ rfl rfl 80 rfl
              (ix1 ⟨j.val - 80, by omega⟩) (fun b hb => match b, hb with | ⟨0, _⟩, hb => (hb rfl).elim)
              (by show 80 + (j.val - 80) = j.val; omega)
          · rw [dif_neg h4]
            by_cases h5 : j.val < 128
            · rw [dif_pos h5]
              exact concatenate_apply_piece (0 : Fin S160.rank) _ _ (ix1 j) 5 (by show 5 < 7; omega) S16 _ rfl rfl 112 rfl
                (ix1 ⟨j.val - 112, by omega⟩) (fun b hb => match b, hb with | ⟨0, _⟩, hb => (hb rfl).elim)
                (by show 112 + (j.val - 112) = j.val; omega)
            · rw [dif_neg h5]
              exact concatenate_apply_piece (0 : Fin S160.rank) _ _ (ix1 j) 6 (by show 6 < 7; omega) S32 _ rfl rfl 128 rfl
                (ix1 ⟨j.val - 128, by omega⟩) (fun b hb => match b, hb with | ⟨0, _⟩, hb => (hb rfl).elim)
                (by show 128 + (j.val - 128) = j.val; omega)

/-! ## The block-diagonal matrix -/

/-- The index vector of a scatter: the two literal corner coordinates, each broadcast to one element, joined. -/
abbrev corner (r c : BitVec 32) : IVec S2 32 :=
  concatenate S2 0 [⟨S1, broadcastInDim S1 ![] bcast_S_S1 (constantI S_ 32 r)⟩,
    ⟨S1, broadcastInDim S1 ![] bcast_S_S1 (constantI S_ 32 c)⟩] concatenates_S1_S1_S2_d0

theorem corner_zero (r c : BitVec 32) : corner r c (ix1 (0 : Fin 2)) = r :=
  concatenate_pair_apply_left (0 : Fin S2.rank) _ _ concatenates_S1_S1_S2_d0 (ix1 (0 : Fin 2)) rfl (ix1 (0 : Fin 1))
    (fun b => match b with | ⟨0, _⟩ => rfl)

theorem corner_one (r c : BitVec 32) : corner r c (ix1 (1 : Fin 2)) = c :=
  concatenate_pair_apply_right (0 : Fin S2.rank) _ _ concatenates_S1_S1_S2_d0 (ix1 (1 : Fin 2)) rfl rfl (ix1 (0 : Fin 1))
    (fun b hb => match b, hb with | ⟨0, _⟩, hb => (hb rfl).elim) rfl

theorem corner_toInt_zero (r c : BitVec 32) (n : Nat) (h : r.toInt = n) : (corner r c (ix1 (0 : Fin 2))).toInt = n := by
  rw [corner_zero]; exact h

theorem corner_toInt_one (r c : BitVec 32) (n : Nat) (h : c.toInt = n) : (corner r c (ix1 (1 : Fin 2))).toInt = n := by
  rw [corner_one]; exact h

attribute [local congr] Cert.Lib.concatenate_pair_congr in
/-- The matrix as the wrapper computes it: zeros, then the seven blocks written in turn, each at its corner. -/
theorem v28_term : (entry m c main_v28 : S94x160.Idx → Elt F .f32)
    = (Host.scatter scatter_S94x160_S2_S20x32_01_n_01_0 (fun _ b => b)
      (Host.scatter scatter_S94x160_S2_S12x16_01_n_01_0 (fun _ b => b)
      (Host.scatter scatter_S94x160_S2_S36x32_01_n_01_0 (fun _ b => b)
      (Host.scatter scatter_S94x160_S2_S2x16_01_n_01_0 (fun _ b => b)
      (Host.scatter scatter_S94x160_S2_S6x16_01_n_01_0 (fun _ b => b)
      (Host.scatter scatter_S94x160_S2_S6x16_01_n_01_0 (fun _ b => b)
      (Host.scatter scatter_S94x160_S2_S12x32_01_n_01_0 (fun _ b => b)
      (broadcastInDim S94x160 ![] bcast_S_S94x160 (constant (F := F) S_ .f32 0x00000000#32))
      (corner 0#32 0#32) (m ((c : Thread nD τ).loc main_arg1)))
      (corner 12#32 32#32) (m ((c : Thread nD τ).loc main_arg3)))
      (corner 18#32 48#32) (m ((c : Thread nD τ).loc main_arg5)))
      (corner 24#32 64#32) (m ((c : Thread nD τ).loc main_arg7)))
      (corner 26#32 80#32) (m ((c : Thread nD τ).loc main_arg9)))
      (corner 62#32 112#32) (m ((c : Thread nD τ).loc main_arg11)))
      (corner 74#32 128#32) (m ((c : Thread nD τ).loc main_arg13))) := by
  dsimp only [entry, Gen.hostOps0]; after_results_simp

/-- The matrix read at row `k`, column `j`. The blocks are disjoint, so the writes are read back from the last to the
    first: the first block whose rectangle holds `(k, j)` gives the element, and outside all seven it is the fill. -/
theorem matrix_apply (k : Fin 94) (j : Fin 160) :
    (entry m c main_v28 : S94x160.Idx → Elt F .f32) (ix2 k j)
      = Cert.Spec.blockDiag ((constant (F := F) S_ .f32 0x00000000#32) ix0)
        (fun a b => (m ((c : Thread nD τ).loc main_arg1)) (ix2 a b))
        (fun a b => (m ((c : Thread nD τ).loc main_arg3)) (ix2 a b))
        (fun a b => (m ((c : Thread nD τ).loc main_arg5)) (ix2 a b))
        (fun a b => (m ((c : Thread nD τ).loc main_arg7)) (ix2 a b))
        (fun a b => (m ((c : Thread nD τ).loc main_arg9)) (ix2 a b))
        (fun a b => (m ((c : Thread nD τ).loc main_arg11)) (ix2 a b))
        (fun a b => (m ((c : Thread nD τ).loc main_arg13)) (ix2 a b)) k j := by
  rw [v28_term]
  unfold Cert.Spec.blockDiag
  have hk : k.val < 94 := k.isLt
  have hj : j.val < 160 := j.isLt
  refine (Cert.Lib.scatter_window_apply scatter_S94x160_S2_S20x32_01_n_01_0 rfl rfl rfl rfl _ _ _ 74 128
    (corner_toInt_zero _ _ _ (by decide)) (corner_toInt_one _ _ _ (by decide)) (by omega) (by omega) k j).trans ?_
  by_cases h6 : 74 ≤ k.val ∧ 128 ≤ j.val
  · rw [dif_pos h6, dif_pos (show (74 ≤ k.val ∧ k.val < 74 + 20) ∧ (128 ≤ j.val ∧ j.val < 128 + 32) by omega)]
  · rw [dif_neg h6, dif_neg (show ¬((74 ≤ k.val ∧ k.val < 74 + 20) ∧ (128 ≤ j.val ∧ j.val < 128 + 32)) by omega)]
    refine (Cert.Lib.scatter_window_apply scatter_S94x160_S2_S12x16_01_n_01_0 rfl rfl rfl rfl _ _ _ 62 112
      (corner_toInt_zero _ _ _ (by decide)) (corner_toInt_one _ _ _ (by decide)) (by omega) (by omega) k j).trans ?_
    by_cases h5 : (62 ≤ k.val ∧ k.val < 74) ∧ (112 ≤ j.val ∧ j.val < 128)
    · rw [dif_pos h5, dif_pos (show (62 ≤ k.val ∧ k.val < 62 + 12) ∧ (112 ≤ j.val ∧ j.val < 112 + 16) by omega)]
    · rw [dif_neg h5, dif_neg (show ¬((62 ≤ k.val ∧ k.val < 62 + 12) ∧ (112 ≤ j.val ∧ j.val < 112 + 16)) by omega)]
      refine (Cert.Lib.scatter_window_apply scatter_S94x160_S2_S36x32_01_n_01_0 rfl rfl rfl rfl _ _ _ 26 80
        (corner_toInt_zero _ _ _ (by decide)) (corner_toInt_one _ _ _ (by decide)) (by omega) (by omega) k j).trans ?_
      by_cases h4 : (26 ≤ k.val ∧ k.val < 62) ∧ (80 ≤ j.val ∧ j.val < 112)
      · rw [dif_pos h4, dif_pos (show (26 ≤ k.val ∧ k.val < 26 + 36) ∧ (80 ≤ j.val ∧ j.val < 80 + 32) by omega)]
      · rw [dif_neg h4, dif_neg (show ¬((26 ≤ k.val ∧ k.val < 26 + 36) ∧ (80 ≤ j.val ∧ j.val < 80 + 32)) by omega)]
        refine (Cert.Lib.scatter_window_apply scatter_S94x160_S2_S2x16_01_n_01_0 rfl rfl rfl rfl _ _ _ 24 64
          (corner_toInt_zero _ _ _ (by decide)) (corner_toInt_one _ _ _ (by decide)) (by omega) (by omega) k j).trans ?_
        by_cases h3 : (24 ≤ k.val ∧ k.val < 26) ∧ (64 ≤ j.val ∧ j.val < 80)
        · rw [dif_pos h3, dif_pos (show (24 ≤ k.val ∧ k.val < 24 + 2) ∧ (64 ≤ j.val ∧ j.val < 64 + 16) by omega)]
        · rw [dif_neg h3, dif_neg (show ¬((24 ≤ k.val ∧ k.val < 24 + 2) ∧ (64 ≤ j.val ∧ j.val < 64 + 16)) by omega)]
          refine (Cert.Lib.scatter_window_apply scatter_S94x160_S2_S6x16_01_n_01_0 rfl rfl rfl rfl _ _ _ 18 48
            (corner_toInt_zero _ _ _ (by decide)) (corner_toInt_one _ _ _ (by decide)) (by omega) (by omega) k j).trans ?_
          by_cases h2 : (18 ≤ k.val ∧ k.val < 24) ∧ (48 ≤ j.val ∧ j.val < 64)
          · rw [dif_pos h2, dif_pos (show (18 ≤ k.val ∧ k.val < 18 + 6) ∧ (48 ≤ j.val ∧ j.val < 48 + 16) by omega)]
          · rw [dif_neg h2, dif_neg (show ¬((18 ≤ k.val ∧ k.val < 18 + 6) ∧ (48 ≤ j.val ∧ j.val < 48 + 16)) by omega)]
            refine (Cert.Lib.scatter_window_apply scatter_S94x160_S2_S6x16_01_n_01_0 rfl rfl rfl rfl _ _ _ 12 32
              (corner_toInt_zero _ _ _ (by decide)) (corner_toInt_one _ _ _ (by decide)) (by omega) (by omega) k j).trans ?_
            by_cases h1 : (12 ≤ k.val ∧ k.val < 18) ∧ (32 ≤ j.val ∧ j.val < 48)
            · rw [dif_pos h1, dif_pos (show (12 ≤ k.val ∧ k.val < 12 + 6) ∧ (32 ≤ j.val ∧ j.val < 32 + 16) by omega)]
            · rw [dif_neg h1, dif_neg (show ¬((12 ≤ k.val ∧ k.val < 12 + 6) ∧ (32 ≤ j.val ∧ j.val < 32 + 16)) by omega)]
              refine (Cert.Lib.scatter_window_apply scatter_S94x160_S2_S12x32_01_n_01_0 rfl rfl rfl rfl _ _ _ 0 0
                (corner_toInt_zero _ _ _ (by decide)) (corner_toInt_one _ _ _ (by decide)) (by omega) (by omega) k j).trans ?_
              by_cases h0 : k.val < 12 ∧ j.val < 32
              · rw [dif_pos h0, dif_pos (show (0 ≤ k.val ∧ k.val < 0 + 12) ∧ (0 ≤ j.val ∧ j.val < 0 + 32) by omega)]; rfl
              · rw [dif_neg h0, dif_neg (show ¬((0 ≤ k.val ∧ k.val < 0 + 12) ∧ (0 ≤ j.val ∧ j.val < 0 + 32)) by omega)]
                exact broadcastInDim_apply ![] bcast_S_S94x160 _ (ix2 k j) ix0 (fun a => a.elim0)

end Cert.KernelIdeal.HostSide
-- ==== Proof.LibCoords.lean ====
/-
  Reading an array at coordinates.

  An index of a rank-2 array is determined by its two coordinates, and of a rank-1 array by its one coordinate.
  `at2 f a b` and `at1 f a` name the value of `f` at the index with those coordinates, and `at2_eq` / `at1_eq` say that
  `f` at ANY index is `at2 f` / `at1 f` of that index's coordinates. Rewriting with them turns an equation between values
  read at two differently written indices into an equation between their coordinates, which are numbers below literal
  bounds and compare by evaluation.
-/
import Idealize.ShloMosaic.Lib.ValueIdx

namespace Cert.Lib

open Idealize.ShloMosaic Idealize.ShloMosaic.ValueIdx

variable {α : Type}

/-- The value of a rank-2 array at the index with coordinates `a`, `b`. -/
def at2 {n0 n1 : ℕ} (f : (⟨2, ![n0, n1]⟩ : Shape).Idx → α) (a : Fin n0) (b : Fin n1) : α := f (ix2 a b)
/-- The value of a rank-1 array at the index with coordinate `a`. -/
def at1 {n : ℕ} (f : (⟨1, ![n]⟩ : Shape).Idx → α) (a : Fin n) : α := f (ix1 a)
/-- A rank-2 array at an index is the array at that index's two coordinates. -/
theorem at2_eq {n0 n1 : ℕ} (f : (⟨2, ![n0, n1]⟩ : Shape).Idx → α) (i : (⟨2, ![n0, n1]⟩ : Shape).Idx) :
    f i = at2 f (i 0) (i 1) := congrArg f (eq_ix2 i)
/-- A rank-1 array at an index is the array at that index's coordinate. -/
theorem at1_eq {n : ℕ} (f : (⟨1, ![n]⟩ : Shape).Idx → α) (i : (⟨1, ![n]⟩ : Shape).Idx) :
    f i = at1 f (i 0) := congrArg f (eq_ix1 i)

end Cert.Lib
-- ==== Proof.RefValue.lean ====
/-
  What the reference computes, read one entry at a time, is the specification's row function.

  The reference slices each row into seven runs of columns, multiplies each run by its own small weight matrix, adds its
  bias and clips at zero, and lays the seven results side by side; then normalises, clips, multiplies by the 160 × 128
  matrix, adds its bias, normalises and clips. Entry `(r, c)` of the seven results side by side comes from the branch
  whose columns hold `c`, and equals the clipped product of row `r` with column `c` of the block-diagonal matrix plus the
  joined bias, because that column is zero outside the branch's rows.
-/
import proofs.«147416_j72249939853815_2_alg».proof.Proof.Gen.ReferenceIdeal.Read
import proofs.«147416_j72249939853815_2_alg».proof.Proof.Spec
import proofs.«147416_j72249939853815_2_alg».proof.Proof.LibCoords
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec Cert.Lib

variable (x0 : (⟨S524288x94, .f32⟩ : BufTy).Contents (Elt Ideal)) (x1 : (⟨S12x32, .f32⟩ : BufTy).Contents (Elt Ideal)) (x2 : (⟨S32, .f32⟩ : BufTy).Contents (Elt Ideal)) (x3 : (⟨S6x16, .f32⟩ : BufTy).Contents (Elt Ideal)) (x4 : (⟨S16, .f32⟩ : BufTy).Contents (Elt Ideal)) (x5 : (⟨S6x16, .f32⟩ : BufTy).Contents (Elt Ideal)) (x6 : (⟨S16, .f32⟩ : BufTy).Contents (Elt Ideal)) (x7 : (⟨S2x16, .f32⟩ : BufTy).Contents (Elt Ideal)) (x8 : (⟨S16, .f32⟩ : BufTy).Contents (Elt Ideal)) (x9 : (⟨S36x32, .f32⟩ : BufTy).Contents (Elt Ideal)) (x10 : (⟨S32, .f32⟩ : BufTy).Contents (Elt Ideal)) (x11 : (⟨S12x16, .f32⟩ : BufTy).Contents (Elt Ideal)) (x12 : (⟨S16, .f32⟩ : BufTy).Contents (Elt Ideal)) (x13 : (⟨S20x32, .f32⟩ : BufTy).Contents (Elt Ideal)) (x14 : (⟨S32, .f32⟩ : BufTy).Contents (Elt Ideal)) (x15 : (⟨S160, .f32⟩ : BufTy).Contents (Elt Ideal)) (x16 : (⟨S160, .f32⟩ : BufTy).Contents (Elt Ideal)) (x17 : (⟨S160x128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal))

/-- Branch 0: columns 0–11 of row `r` times the 12 × 32 weights, plus the bias, clipped below at zero. -/
theorem branch0_apply (r : Fin 524288) (c : Fin 32) :
    val_main_v5 (F := Ideal) x0 x1 x2 (ix2 r c)
      = max ((∑ k : Fin 12, x0 (ix2 r ⟨k.val, by have := k.isLt; omega⟩) * x1 (ix2 k c)) + x2 (ix1 c)) zeroW := by
  simp only [val_main_v5_apply, val_main_call0_v0_apply, val_main_call0_cst_apply, val_main_v4_apply, val_main_v3_apply,
    val_main_v2_apply, val_main_v1_apply, val_main_v0_apply]
  simp only [at2_eq x0, at2_eq x1, at1_eq x2]
  rfl

/-- Branch 1: columns 12–17 of row `r` times the 6 × 16 weights, plus the bias, clipped below at zero. -/
theorem branch1_apply (r : Fin 524288) (c : Fin 16) :
    val_main_v11 (F := Ideal) x0 x3 x4 (ix2 r c)
      = max ((∑ k : Fin 6, x0 (ix2 r ⟨12 + k.val, by have := k.isLt; omega⟩) * x3 (ix2 k c)) + x4 (ix1 c)) zeroW := by
  simp only [val_main_v11_apply, val_main_call1_v0_apply, val_main_call1_cst_apply, val_main_v10_apply, val_main_v9_apply,
    val_main_v8_apply, val_main_v7_apply, val_main_v6_apply]
  simp only [at2_eq x0, at2_eq x3, at1_eq x4]
  rfl

/-- Branch 2: columns 18–23 of row `r` times the 6 × 16 weights, plus the bias, clipped below at zero. -/
theorem branch2_apply (r : Fin 524288) (c : Fin 16) :
    val_main_v17 (F := Ideal) x0 x5 x6 (ix2 r c)
      = max ((∑ k : Fin 6, x0 (ix2 r ⟨18 + k.val, by have := k.isLt; omega⟩) * x5 (ix2 k c)) + x6 (ix1 c)) zeroW := by
  simp only [val_main_v17_apply, val_main_call2_v0_apply, val_main_call2_cst_apply, val_main_v16_apply, val_main_v15_apply,
    val_main_v14_apply, val_main_v13_apply, val_main_v12_apply]
  simp only [at2_eq x0, at2_eq x5, at1_eq x6]
  rfl

/-- Branch 3: columns 24–25 of row `r` times the 2 × 16 weights, plus the bias, clipped below at zero. -/
theorem branch3_apply (r : Fin 524288) (c : Fin 16) :
    val_main_v23 (F := Ideal) x0 x7 x8 (ix2 r c)
      = max ((∑ k : Fin 2, x0 (ix2 r ⟨24 + k.val, by have := k.isLt; omega⟩) * x7 (ix2 k c)) + x8 (ix1 c)) zeroW := by
  simp only [val_main_v23_apply, val_main_call3_v0_apply, val_main_call3_cst_apply, val_main_v22_apply, val_main_v21_apply,
    val_main_v20_apply, val_main_v19_apply, val_main_v18_apply]
  simp only [at2_eq x0, at2_eq x7, at1_eq x8]
  rfl

/-- Branch 4: columns 26–61 of row `r` times the 36 × 32 weights, plus the bias, clipped below at zero. -/
theorem branch4_apply (r : Fin 524288) (c : Fin 32) :
    val_main_v29 (F := Ideal) x0 x9 x10 (ix2 r c)
      = max ((∑ k : Fin 36, x0 (ix2 r ⟨26 + k.val, by have := k.isLt; omega⟩) * x9 (ix2 k c)) + x10 (ix1 c)) zeroW := by
  simp only [val_main_v29_apply, val_main_call4_v0_apply, val_main_call4_cst_apply, val_main_v28_apply, val_main_v27_apply,
    val_main_v26_apply, val_main_v25_apply, val_main_v24_apply]
  simp only [at2_eq x0, at2_eq x9, at1_eq x10]
  rfl

/-- Branch 5: columns 62–73 of row `r` times the 12 × 16 weights, plus the bias, clipped below at zero. -/
theorem branch5_apply (r : Fin 524288) (c : Fin 16) :
    val_main_v35 (F := Ideal) x0 x11 x12 (ix2 r c)
      = max ((∑ k : Fin 12, x0 (ix2 r ⟨62 + k.val, by have := k.isLt; omega⟩) * x11 (ix2 k c)) + x12 (ix1 c)) zeroW := by
  simp only [val_main_v35_apply, val_main_call5_v0_apply, val_main_call5_cst_apply, val_main_v34_apply, val_main_v33_apply,
    val_main_v32_apply, val_main_v31_apply, val_main_v30_apply]
  simp only [at2_eq x0, at2_eq x11, at1_eq x12]
  rfl

/-- Branch 6: columns 74–93 of row `r` times the 20 × 32 weights, plus the bias, clipped below at zero. -/
theorem branch6_apply (r : Fin 524288) (c : Fin 32) :
    val_main_v41 (F := Ideal) x0 x13 x14 (ix2 r c)
      = max ((∑ k : Fin 20, x0 (ix2 r ⟨74 + k.val, by have := k.isLt; omega⟩) * x13 (ix2 k c)) + x14 (ix1 c)) zeroW := by
  simp only [val_main_v41_apply, val_main_call6_v0_apply, val_main_call6_cst_apply, val_main_v40_apply, val_main_v39_apply,
    val_main_v38_apply, val_main_v37_apply, val_main_v36_apply]
  simp only [at2_eq x0, at2_eq x13, at1_eq x14]
  rfl

set_option maxHeartbeats 1000000 in
/-- The seven clipped branches side by side are the clipped product of the row with the block-diagonal matrix plus the
    joined bias: a column in block `i` meets only that block's rows (`Cert.Spec.sum_window`). -/
theorem joined_apply (r : Fin 524288) (c : Fin 160) :
    val_main_v42 (F := Ideal) x0 x1 x2 x3 x4 x5 x6 x7 x8 x9 x10 x11 x12 x13 x14 (ix2 r c)
      = max (preAct (fun k => x0 (ix2 r k)) (blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b))) (joined (fun a => x2 (ix1 a)) (fun a => x4 (ix1 a)) (fun a => x6 (ix1 a)) (fun a => x8 (ix1 a)) (fun a => x10 (ix1 a)) (fun a => x12 (ix1 a)) (fun a => x14 (ix1 a))) c) zeroW := by
  have hc := c.isLt
  by_cases h0 : c.val < 32
  ·
    -- columns 0–31: piece 0 of the join, the block at rows 0–11
    have hcat : val_main_v42 (F := Ideal) x0 x1 x2 x3 x4 x5 x6 x7 x8 x9 x10 x11 x12 x13 x14 (ix2 r c) = val_main_v5 (F := Ideal) x0 x1 x2 (ix2 r ⟨c.val, by omega⟩) := by
      unfold val_main_v42
      refine concatenate_apply_piece (1 : Fin 2) _ _ (ix2 r c) 0 ?_ S524288x32 (val_main_v5 (F := Ideal) x0 x1 x2) ?_ ?_ 0 ?_
        (ix2 r ⟨c.val, by omega⟩) ?_ ?_
      · show (0 : ℕ) < 7; omega
      · rfl
      · rfl
      · rfl
      · intro b hb
        match b with
        | ⟨0, _⟩ => rfl
        | ⟨1, _⟩ => exact absurd rfl hb
      · show 0 + c.val = c.val; omega
    have hin : ∀ k : Fin 12, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨0 + k.val, by have := k.isLt; omega⟩ c = x1 (ix2 k ⟨c.val, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 0 ∨ 0 + 12 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch0_apply]
    refine congrArg (max · zeroW) ?_
    unfold preAct
    refine congrArg₂ (· + ·) ?_ ?_
    ·
      have hs := sum_window 0 (by norm_num : 0 + 12 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x1 (ix2 k ⟨c.val, by omega⟩)) hin hout
      simp only [Nat.zero_add] at hs
      exact hs.symm
    · unfold joined
      split_ifs <;> first | (exfalso; omega) | rfl
  by_cases h1 : c.val < 48
  ·
    -- columns 32–47: piece 1 of the join, the block at rows 12–17
    have hcat : val_main_v42 (F := Ideal) x0 x1 x2 x3 x4 x5 x6 x7 x8 x9 x10 x11 x12 x13 x14 (ix2 r c) = val_main_v11 (F := Ideal) x0 x3 x4 (ix2 r ⟨c.val - 32, by omega⟩) := by
      unfold val_main_v42
      refine concatenate_apply_piece (1 : Fin 2) _ _ (ix2 r c) 1 ?_ S524288x16 (val_main_v11 (F := Ideal) x0 x3 x4) ?_ ?_ 32 ?_
        (ix2 r ⟨c.val - 32, by omega⟩) ?_ ?_
      · show (1 : ℕ) < 7; omega
      · rfl
      · rfl
      · rfl
      · intro b hb
        match b with
        | ⟨0, _⟩ => rfl
        | ⟨1, _⟩ => exact absurd rfl hb
      · show 32 + (c.val - 32) = c.val; omega
    have hin : ∀ k : Fin 6, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨12 + k.val, by have := k.isLt; omega⟩ c = x3 (ix2 k ⟨c.val - 32, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 12 ∨ 12 + 6 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch1_apply]
    refine congrArg (max · zeroW) ?_
    unfold preAct
    refine congrArg₂ (· + ·) ?_ ?_
    ·
      exact (sum_window 12 (by norm_num : 12 + 6 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x3 (ix2 k ⟨c.val - 32, by omega⟩)) hin hout).symm
    · unfold joined
      split_ifs <;> first | (exfalso; omega) | rfl
  by_cases h2 : c.val < 64
  ·
    -- columns 48–63: piece 2 of the join, the block at rows 18–23
    have hcat : val_main_v42 (F := Ideal) x0 x1 x2 x3 x4 x5 x6 x7 x8 x9 x10 x11 x12 x13 x14 (ix2 r c) = val_main_v17 (F := Ideal) x0 x5 x6 (ix2 r ⟨c.val - 48, by omega⟩) := by
      unfold val_main_v42
      refine concatenate_apply_piece (1 : Fin 2) _ _ (ix2 r c) 2 ?_ S524288x16 (val_main_v17 (F := Ideal) x0 x5 x6) ?_ ?_ 48 ?_
        (ix2 r ⟨c.val - 48, by omega⟩) ?_ ?_
      · show (2 : ℕ) < 7; omega
      · rfl
      · rfl
      · rfl
      · intro b hb
        match b with
        | ⟨0, _⟩ => rfl
        | ⟨1, _⟩ => exact absurd rfl hb
      · show 48 + (c.val - 48) = c.val; omega
    have hin : ∀ k : Fin 6, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨18 + k.val, by have := k.isLt; omega⟩ c = x5 (ix2 k ⟨c.val - 48, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 18 ∨ 18 + 6 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch2_apply]
    refine congrArg (max · zeroW) ?_
    unfold preAct
    refine congrArg₂ (· + ·) ?_ ?_
    ·
      exact (sum_window 18 (by norm_num : 18 + 6 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x5 (ix2 k ⟨c.val - 48, by omega⟩)) hin hout).symm
    · unfold joined
      split_ifs <;> first | (exfalso; omega) | rfl
  by_cases h3 : c.val < 80
  ·
    -- columns 64–79: piece 3 of the join, the block at rows 24–25
    have hcat : val_main_v42 (F := Ideal) x0 x1 x2 x3 x4 x5 x6 x7 x8 x9 x10 x11 x12 x13 x14 (ix2 r c) = val_main_v23 (F := Ideal) x0 x7 x8 (ix2 r ⟨c.val - 64, by omega⟩) := by
      unfold val_main_v42
      refine concatenate_apply_piece (1 : Fin 2) _ _ (ix2 r c) 3 ?_ S524288x16 (val_main_v23 (F := Ideal) x0 x7 x8) ?_ ?_ 64 ?_
        (ix2 r ⟨c.val - 64, by omega⟩) ?_ ?_
      · show (3 : ℕ) < 7; omega
      · rfl
      · rfl
      · rfl
      · intro b hb
        match b with
        | ⟨0, _⟩ => rfl
        | ⟨1, _⟩ => exact absurd rfl hb
      · show 64 + (c.val - 64) = c.val; omega
    have hin : ∀ k : Fin 2, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨24 + k.val, by have := k.isLt; omega⟩ c = x7 (ix2 k ⟨c.val - 64, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 24 ∨ 24 + 2 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch3_apply]
    refine congrArg (max · zeroW) ?_
    unfold preAct
    refine congrArg₂ (· + ·) ?_ ?_
    ·
      exact (sum_window 24 (by norm_num : 24 + 2 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x7 (ix2 k ⟨c.val - 64, by omega⟩)) hin hout).symm
    · unfold joined
      split_ifs <;> first | (exfalso; omega) | rfl
  by_cases h4 : c.val < 112
  ·
    -- columns 80–111: piece 4 of the join, the block at rows 26–61
    have hcat : val_main_v42 (F := Ideal) x0 x1 x2 x3 x4 x5 x6 x7 x8 x9 x10 x11 x12 x13 x14 (ix2 r c) = val_main_v29 (F := Ideal) x0 x9 x10 (ix2 r ⟨c.val - 80, by omega⟩) := by
      unfold val_main_v42
      refine concatenate_apply_piece (1 : Fin 2) _ _ (ix2 r c) 4 ?_ S524288x32 (val_main_v29 (F := Ideal) x0 x9 x10) ?_ ?_ 80 ?_
        (ix2 r ⟨c.val - 80, by omega⟩) ?_ ?_
      · show (4 : ℕ) < 7; omega
      · rfl
      · rfl
      · rfl
      · intro b hb
        match b with
        | ⟨0, _⟩ => rfl
        | ⟨1, _⟩ => exact absurd rfl hb
      · show 80 + (c.val - 80) = c.val; omega
    have hin : ∀ k : Fin 36, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨26 + k.val, by have := k.isLt; omega⟩ c = x9 (ix2 k ⟨c.val - 80, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 26 ∨ 26 + 36 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch4_apply]
    refine congrArg (max · zeroW) ?_
    unfold preAct
    refine congrArg₂ (· + ·) ?_ ?_
    ·
      exact (sum_window 26 (by norm_num : 26 + 36 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x9 (ix2 k ⟨c.val - 80, by omega⟩)) hin hout).symm
    · unfold joined
      split_ifs <;> first | (exfalso; omega) | rfl
  by_cases h5 : c.val < 128
  ·
    -- columns 112–127: piece 5 of the join, the block at rows 62–73
    have hcat : val_main_v42 (F := Ideal) x0 x1 x2 x3 x4 x5 x6 x7 x8 x9 x10 x11 x12 x13 x14 (ix2 r c) = val_main_v35 (F := Ideal) x0 x11 x12 (ix2 r ⟨c.val - 112, by omega⟩) := by
      unfold val_main_v42
      refine concatenate_apply_piece (1 : Fin 2) _ _ (ix2 r c) 5 ?_ S524288x16 (val_main_v35 (F := Ideal) x0 x11 x12) ?_ ?_ 112 ?_
        (ix2 r ⟨c.val - 112, by omega⟩) ?_ ?_
      · show (5 : ℕ) < 7; omega
      · rfl
      · rfl
      · rfl
      · intro b hb
        match b with
        | ⟨0, _⟩ => rfl
        | ⟨1, _⟩ => exact absurd rfl hb
      · show 112 + (c.val - 112) = c.val; omega
    have hin : ∀ k : Fin 12, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨62 + k.val, by have := k.isLt; omega⟩ c = x11 (ix2 k ⟨c.val - 112, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 62 ∨ 62 + 12 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch5_apply]
    refine congrArg (max · zeroW) ?_
    unfold preAct
    refine congrArg₂ (· + ·) ?_ ?_
    ·
      exact (sum_window 62 (by norm_num : 62 + 12 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x11 (ix2 k ⟨c.val - 112, by omega⟩)) hin hout).symm
    · unfold joined
      split_ifs <;> first | (exfalso; omega) | rfl
  ·
    -- columns 128–159: piece 6 of the join, the block at rows 74–93
    have hcat : val_main_v42 (F := Ideal) x0 x1 x2 x3 x4 x5 x6 x7 x8 x9 x10 x11 x12 x13 x14 (ix2 r c) = val_main_v41 (F := Ideal) x0 x13 x14 (ix2 r ⟨c.val - 128, by omega⟩) := by
      unfold val_main_v42
      refine concatenate_apply_piece (1 : Fin 2) _ _ (ix2 r c) 6 ?_ S524288x32 (val_main_v41 (F := Ideal) x0 x13 x14) ?_ ?_ 128 ?_
        (ix2 r ⟨c.val - 128, by omega⟩) ?_ ?_
      · show (6 : ℕ) < 7; omega
      · rfl
      · rfl
      · rfl
      · intro b hb
        match b with
        | ⟨0, _⟩ => rfl
        | ⟨1, _⟩ => exact absurd rfl hb
      · show 128 + (c.val - 128) = c.val; omega
    have hin : ∀ k : Fin 20, blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) ⟨74 + k.val, by have := k.isLt; omega⟩ c = x13 (ix2 k ⟨c.val - 128, by omega⟩) := by
      intro k
      have hk := k.isLt
      unfold blockDiag
      dsimp only
      split_ifs <;> first | (exfalso; omega) | (simp only [Nat.add_sub_cancel_left, Nat.zero_add, Fin.eta])
    have hout : ∀ k : Fin 94, (k.val < 74 ∨ 74 + 20 ≤ k.val) → blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c = 0 := by
      intro k hk
      unfold blockDiag
      split_ifs <;> first | (exfalso; omega) | rfl
    rw [hcat, branch6_apply]
    refine congrArg (max · zeroW) ?_
    unfold preAct
    refine congrArg₂ (· + ·) ?_ ?_
    ·
      exact (sum_window 74 (by norm_num : 74 + 20 ≤ 94) (fun k => x0 (ix2 r k)) (fun k => blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b)) k c)
        (fun k => x13 (ix2 k ⟨c.val - 128, by omega⟩)) hin hout).symm
    · unfold joined
      split_ifs <;> first | (exfalso; omega) | rfl

/-- The first normalisation: row `r` of the joined activations normalised over its 160 entries, scaled, shifted and clipped. -/
theorem normed_apply (r : Fin 524288) (j : Fin 160) :
    val_main_v67 (F := Ideal) x0 x1 x2 x3 x4 x5 x6 x7 x8 x9 x10 x11 x12 x13 x14 x15 x16 (ix2 r j)
      = max (layerNorm n160W epsW (fun l => val_main_v42 (F := Ideal) x0 x1 x2 x3 x4 x5 x6 x7 x8 x9 x10 x11 x12 x13 x14 (ix2 r l)) (fun l => x15 (ix1 l)) (fun l => x16 (ix1 l)) j) zeroW := by
  simp only [val_main_v67_apply, val_main_call7_v0_apply, val_main_call7_cst_apply, val_main_v66_apply, val_main_v65_apply, val_main_v64_apply, val_main_v63_apply, val_main_v62_apply, val_main_v61_apply, val_main_v60_apply, val_main_v59_apply, val_main_v58_apply, val_main_v57_apply, val_main_v56_apply, val_main_cst_3_apply, val_main_v55_apply, val_main_v54_apply, val_main_v53_apply, val_main_v52_apply, val_main_cst_2_apply, val_main_v51_apply, val_main_v50_apply, val_main_cst_1_apply, val_main_v49_apply, val_main_v48_apply, val_main_v47_apply, val_main_v46_apply, val_main_v45_apply, val_main_cst_0_apply, val_main_v44_apply, val_main_v43_apply, val_main_cst_apply]
  simp only [layerNorm, mean]
  simp only [at2_eq (val_main_v42 (F := Ideal) x0 x1 x2 x3 x4 x5 x6 x7 x8 x9 x10 x11 x12 x13 x14), at1_eq x15, at1_eq x16]
  simp only [Ideal.ofBits_def, Ideal.ofBits_zero_f32, zero_add]
  rfl

/-- The second matrix product and its bias, at `(r, q)`. -/
theorem fused_apply (r : Fin 524288) (q : Fin 128) :
    val_main_v71 (F := Ideal) x0 x1 x2 x3 x4 x5 x6 x7 x8 x9 x10 x11 x12 x13 x14 x15 x16 x17 x18 (ix2 r q)
      = preAct (fun j => val_main_v67 (F := Ideal) x0 x1 x2 x3 x4 x5 x6 x7 x8 x9 x10 x11 x12 x13 x14 x15 x16 (ix2 r j)) (fun j q => x17 (ix2 j q)) (fun q => x18 (ix1 q)) q := by
  simp only [val_main_v71_apply, val_main_v70_apply, val_main_v69_apply, val_main_v68_apply]
  simp only [preAct]
  simp only [at2_eq (val_main_v67 (F := Ideal) x0 x1 x2 x3 x4 x5 x6 x7 x8 x9 x10 x11 x12 x13 x14 x15 x16), at2_eq x17, at1_eq x18]
  rfl

/-- The second normalisation, over the 128 entries of row `r`, clipped. -/
theorem out_apply (r : Fin 524288) (q : Fin 128) :
    val_main_v96 (F := Ideal) x0 x1 x2 x3 x4 x5 x6 x7 x8 x9 x10 x11 x12 x13 x14 x15 x16 x17 x18 x19 x20 (ix2 r q)
      = max (layerNorm n128W epsW (fun c => val_main_v71 (F := Ideal) x0 x1 x2 x3 x4 x5 x6 x7 x8 x9 x10 x11 x12 x13 x14 x15 x16 x17 x18 (ix2 r c)) (fun c => x19 (ix1 c)) (fun c => x20 (ix1 c)) q) zeroW := by
  simp only [val_main_v96_apply, val_main_call8_v0_apply, val_main_call8_cst_apply, val_main_v95_apply, val_main_v94_apply, val_main_v93_apply, val_main_v92_apply, val_main_v91_apply, val_main_v90_apply, val_main_v89_apply, val_main_v88_apply, val_main_v87_apply, val_main_v86_apply, val_main_v85_apply, val_main_cst_8_apply, val_main_v84_apply, val_main_v83_apply, val_main_v82_apply, val_main_v81_apply, val_main_cst_7_apply, val_main_v80_apply, val_main_v79_apply, val_main_cst_6_apply, val_main_v78_apply, val_main_v77_apply, val_main_v76_apply, val_main_v75_apply, val_main_v74_apply, val_main_cst_5_apply, val_main_v73_apply, val_main_v72_apply, val_main_cst_4_apply]
  simp only [layerNorm, mean]
  simp only [at2_eq (val_main_v71 (F := Ideal) x0 x1 x2 x3 x4 x5 x6 x7 x8 x9 x10 x11 x12 x13 x14 x15 x16 x17 x18), at1_eq x19, at1_eq x20]
  simp only [Ideal.ofBits_def, Ideal.ofBits_zero_f32, zero_add]
  rfl

/-- The reference's result at `(r, q)` is the specification's row function of row `r` of the input. -/
theorem result_apply (r : Fin 524288) (q : Fin 128) :
    val_main_v96 (F := Ideal) x0 x1 x2 x3 x4 x5 x6 x7 x8 x9 x10 x11 x12 x13 x14 x15 x16 x17 x18 x19 x20 (ix2 r q)
      = rowOut (preAct (fun k => x0 (ix2 r k)) (blockDiag (0 : EReal) (fun a b => x1 (ix2 a b)) (fun a b => x3 (ix2 a b)) (fun a b => x5 (ix2 a b)) (fun a b => x7 (ix2 a b)) (fun a b => x9 (ix2 a b)) (fun a b => x11 (ix2 a b)) (fun a b => x13 (ix2 a b))) (joined (fun a => x2 (ix1 a)) (fun a => x4 (ix1 a)) (fun a => x6 (ix1 a)) (fun a => x8 (ix1 a)) (fun a => x10 (ix1 a)) (fun a => x12 (ix1 a)) (fun a => x14 (ix1 a))))
          (fun l => x15 (ix1 l)) (fun l => x16 (ix1 l)) (fun j q => x17 (ix2 j q)) (fun q => x18 (ix1 q)) (fun q => x19 (ix1 q)) (fun q => x20 (ix1 q)) q := by
  rw [out_apply]
  unfold rowOut
  simp only [fused_apply, normed_apply, joined_apply]

end Cert.ReferenceIdeal.RefValue

end
-- ==== Proof.lean ====
/-
  The certificate: a fused encoder kernel against its reference.

  Each of 524288 rows of 94 features goes through seven small affine maps on disjoint runs of columns, each clipped
  at zero, whose results laid side by side (160 values) are normalised, clipped, mapped affinely to 128 values,
  normalised and clipped. The kernel does the seven maps as ONE product with a 94 × 160 block-diagonal matrix that its
  wrapper assembles (each block written into a zero matrix) and a bias that joins the seven; the reference slices, multiplies and
  joins. At the extended reals the two agree entry by entry: a column of the block-diagonal matrix is zero outside its
  block's rows, so the long product is the short one (`Cert.Spec.sum_window`), and everything after is the same
  function of the same numbers (`Cert.Spec.rowOut`). The law uses only that a product with zero is zero, so the
  finiteness precondition is never opened.

  The three frames: the kernel programs run their 128 grid points, each loading its blocks whole and storing its
  output block whole, and leave every argument as launched; the reference is straight-line host code. Nothing was
  rewritten by the idealisation, so its preservation claim is empty.
-/
import proofs.«147416_j72249939853815_2_alg».proof.Defs
import proofs.«147416_j72249939853815_2_alg».proof.Proof.Gen.Kernel
import proofs.«147416_j72249939853815_2_alg».proof.Proof.Gen.Kernel.Skeleton
import proofs.«147416_j72249939853815_2_alg».proof.Proof.Gen.Kernel.Launch
import proofs.«147416_j72249939853815_2_alg».proof.Proof.Gen.Kernel.Points
import proofs.«147416_j72249939853815_2_alg».proof.Proof.Gen.KernelIdeal
import proofs.«147416_j72249939853815_2_alg».proof.Proof.Gen.KernelIdeal.Skeleton
import proofs.«147416_j72249939853815_2_alg».proof.Proof.Gen.KernelIdeal.Launch
import proofs.«147416_j72249939853815_2_alg».proof.Proof.Gen.KernelIdeal.Points
import proofs.«147416_j72249939853815_2_alg».proof.Proof.Gen.ReferenceIdeal
import proofs.«147416_j72249939853815_2_alg».proof.Proof.Gen.Pre_finite_inputs
import proofs.«147416_j72249939853815_2_alg».proof.Proof.Gen.ReferenceIdeal.Run
import proofs.«147416_j72249939853815_2_alg».proof.Proof.Gen.ReferenceIdeal.Read
import proofs.«147416_j72249939853815_2_alg».proof.Proof.BitsFrame
import proofs.«147416_j72249939853815_2_alg».proof.Proof.IdealFrame
import proofs.«147416_j72249939853815_2_alg».proof.Proof.KernelValue
import proofs.«147416_j72249939853815_2_alg».proof.Proof.HostSide
import proofs.«147416_j72249939853815_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

/-- The kernel as printed runs to the end and leaves its arguments unchanged. -/
theorem frame_kernel [Cert.Kernel.Facts] [Cert.Pre_finite_inputs.Facts] : Cert.frame_Kernel :=
  fun m ρ _ => Cert.Kernel.Hand.frame m ρ

/-- So does its idealisation. -/
theorem frame_kernelIdeal [Cert.KernelIdeal.Facts] [Cert.Pre_finite_inputs.Facts] : Cert.frame_KernelIdeal :=
  fun m ρ _ => Cert.KernelIdeal.Hand.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

open Cert.KernelIdeal Cert.KernelIdeal.Hand in
/-- The whole result array of the kernel, written over the ARGUMENT arrays: what the wrapper assembled is the
    block-diagonal matrix of the seven weights and the join of the seven biases, and its reshapes change nothing. -/
theorem kernel_entry_eq [Cert.KernelIdeal.Facts] (m : (ℓ : Loc Cert.KernelIdeal.nD Cert.KernelIdeal.τ Cert.KernelIdeal.sig) → Buf (Elt Ideal) ℓ)
    (c : Dev Cert.KernelIdeal.nD) (r : Fin 524288) (q : Fin 128) :
    Cert.KernelIdeal.KValue.entryFn m c (ix2 r q)
      = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (ix2 r q) := by
  have key : Cert.KernelIdeal.KValue.entryFn m c (ix2 r q)
      = rowOut (preAct (fun k => (V m c main_arg0 : S524288x94.Idx → EReal) (ix2 r k))
            (fun k j => (V m c main_v28 : S94x160.Idx → EReal) (ix2 k j)) (fun j => (V m c main_v30 : S1x160.Idx → EReal) (ix2 (0 : Fin 1) j)))
          (fun q => (V m c main_v31 : S1x160.Idx → EReal) (ix2 (0 : Fin 1) q)) (fun q => (V m c main_v32 : S1x160.Idx → EReal) (ix2 (0 : Fin 1) q))
          (fun j q => (V m c main_arg17 : S160x128.Idx → EReal) (ix2 j q)) (fun q => (V m c main_v33 : S1x128.Idx → EReal) (ix2 (0 : Fin 1) q))
          (fun q => (V m c main_v34 : S1x128.Idx → EReal) (ix2 (0 : Fin 1) q)) (fun q => (V m c main_v35 : S1x128.Idx → EReal) (ix2 (0 : Fin 1) q)) q := rfl
  have e0 : (fun k => (V m c main_arg0 : S524288x94.Idx → EReal) (ix2 r k)) = fun k : Fin 94 => (m ((c : Thread nD τ).loc main_arg0)) (ix2 r k) :=
    funext fun k => congrFun (V_main_arg0 m c) _
  have e17 : (fun j q => (V m c main_arg17 : S160x128.Idx → EReal) (ix2 j q)) = fun (j : Fin 160) (q : Fin 128) => (m ((c : Thread nD τ).loc main_arg17)) (ix2 j q) :=
    funext fun j => funext fun q => congrFun (V_main_arg17 m c) _
  have e28 : (fun k j => (V m c main_v28 : S94x160.Idx → EReal) (ix2 k j)) = blockDiag (0 : EReal) (fun a b => (m ((c : Thread nD τ).loc main_arg1)) (ix2 a b)) (fun a b => (m ((c : Thread nD τ).loc main_arg3)) (ix2 a b)) (fun a b => (m ((c : Thread nD τ).loc main_arg5)) (ix2 a b)) (fun a b => (m ((c : Thread nD τ).loc main_arg7)) (ix2 a b)) (fun a b => (m ((c : Thread nD τ).loc main_arg9)) (ix2 a b)) (fun a b => (m ((c : Thread nD τ).loc main_arg11)) (ix2 a b)) (fun a b => (m ((c : Thread nD τ).loc main_arg13)) (ix2 a b)) := by
    funext k j
    refine (Cert.KernelIdeal.HostSide.matrix_apply m c k j).trans ?_
    show blockDiag (Ideal.ofBits .f32 0x00000000#32) _ _ _ _ _ _ _ k j = _
    rw [Ideal.ofBits_zero_f32]
  have e30 : (fun j => (V m c main_v30 : S1x160.Idx → EReal) (ix2 (0 : Fin 1) j)) = joined (fun a => (m ((c : Thread nD τ).loc main_arg2)) (ix1 a)) (fun a => (m ((c : Thread nD τ).loc main_arg4)) (ix1 a)) (fun a => (m ((c : Thread nD τ).loc main_arg6)) (ix1 a)) (fun a => (m ((c : Thread nD τ).loc main_arg8)) (ix1 a)) (fun a => (m ((c : Thread nD τ).loc main_arg10)) (ix1 a)) (fun a => (m ((c : Thread nD τ).loc main_arg12)) (ix1 a)) (fun a => (m ((c : Thread nD τ).loc main_arg14)) (ix1 a)) :=
    funext fun j => Cert.KernelIdeal.HostSide.bias_apply m c 0 j
  have e31 : (fun q => (V m c main_v31 : S1x160.Idx → EReal) (ix2 (0 : Fin 1) q)) = fun q : Fin 160 => (m ((c : Thread nD τ).loc main_arg15)) (ix1 q) :=
    funext fun q => Cert.KernelIdeal.HostSide.row_v31_apply m c 0 q
  have e32 : (fun q => (V m c main_v32 : S1x160.Idx → EReal) (ix2 (0 : Fin 1) q)) = fun q : Fin 160 => (m ((c : Thread nD τ).loc main_arg16)) (ix1 q) :=
    funext fun q => Cert.KernelIdeal.HostSide.row_v32_apply m c 0 q
  have e33 : (fun q => (V m c main_v33 : S1x128.Idx → EReal) (ix2 (0 : Fin 1) q)) = fun q : Fin 128 => (m ((c : Thread nD τ).loc main_arg18)) (ix1 q) :=
    funext fun q => Cert.KernelIdeal.HostSide.row_v33_apply m c 0 q
  have e34 : (fun q => (V m c main_v34 : S1x128.Idx → EReal) (ix2 (0 : Fin 1) q)) = fun q : Fin 128 => (m ((c : Thread nD τ).loc main_arg19)) (ix1 q) :=
    funext fun q => Cert.KernelIdeal.HostSide.row_v34_apply m c 0 q
  have e35 : (fun q => (V m c main_v35 : S1x128.Idx → EReal) (ix2 (0 : Fin 1) q)) = fun q : Fin 128 => (m ((c : Thread nD τ).loc main_arg20)) (ix1 q) :=
    funext fun q => Cert.KernelIdeal.HostSide.row_v35_apply m c 0 q
  rw [key, e0, e17, e28, e30, e31, e32, e33, e34, e35, Cert.ReferenceIdeal.RefValue.result_apply]

/-- From memories that agree on the arguments both idealised programs end with the same array: the kernel's blocks
    assemble to the row function of the arguments, and the reference's run is that function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.entryFn m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v96_eq, h0, h1, h2, h3, h4, h5, h6, h7, h8, h9, h10, h11, h12, h13, h14, h15, h16, h17, h18, h19, h20]
  funext i
  obtain ⟨r, q, rfl⟩ : ∃ (r : Fin 524288) (q : Fin 128), i = ix2 r q := ⟨i 0, i 1, eq_ix2 i⟩
  exact (kernel_entry_eq m c r q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
